-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x8192 : Shape := ⟨2, ![4096, 8192]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S4096x2048 .f32) (main_arg5 : FVec F S4096x8192 .f32) (main_arg6 : FVec F S8192 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S4096x8192 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_v13 main_v16
-- ==== Kernel.lean ====
abbrev S4096x2048 : Shape := ⟨2, ![4096, 2048]⟩
abbrev S4096x8192 : Shape := ⟨2, ![4096, 8192]⟩
abbrev S8192 : Shape := ⟨1, ![8192]⟩
abbrev S2048x8192 : Shape := ⟨2, ![2048, 8192]⟩
abbrev S2048x2048 : Shape := ⟨2, ![2048, 2048]⟩
abbrev S4x2048 : Shape := ⟨2, ![4, 2048]⟩
abbrev S4x4096x2048 : Shape := ⟨3, ![4, 4096, 2048]⟩
abbrev S512x2048 : Shape := ⟨2, ![512, 2048]⟩
abbrev S2048x256 : Shape := ⟨2, ![2048, 256]⟩
abbrev S512x256 : Shape := ⟨2, ![512, 256]⟩
abbrev S4x256 : Shape := ⟨2, ![4, 256]⟩
abbrev S4x512x256 : Shape := ⟨3, ![4, 512, 256]⟩
abbrev S1x256 : Shape := ⟨2, ![1, 256]⟩
abbrev S1x512x256 : Shape := ⟨3, ![1, 512, 256]⟩

abbrev nBuf : Space → Nat
  | .hbm => 29
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x8192, .f32⟩
  | .hbm, ⟨6, _⟩ => ⟨S8192, .f32⟩
  | .hbm, ⟨7, _⟩ => ⟨S2048x8192, .f32⟩
  | .hbm, ⟨8, _⟩ => ⟨S2048x8192, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S4096x2048, .bf16⟩
  | .hbm, ⟨26, _⟩ => ⟨S4096x2048, .bf16⟩
  | .hbm, ⟨27, _⟩ => ⟨S4x2048, .f32⟩
  | .hbm, ⟨28, _⟩ => ⟨S4x4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S4x256, .f32⟩
  | .local _ .vmem, ⟨27, _⟩ => ⟨S4x256, .f32⟩
  | .local _ .vmem, ⟨28, _⟩ => ⟨S4x512x256, .f32⟩
  | .local _ .vmem, ⟨29, _⟩ => ⟨S4x512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S4x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  slices_S4096x8192_S2048x8192_0_0 : S4096x8192.Slices ![0, 0] S2048x8192
  slices_S4096x8192_S2048x8192_2048_0 : S4096x8192.Slices ![2048, 0] S2048x8192
  slices_S2048x8192_S2048x2048_0_0 : S2048x8192.Slices ![0, 0] S2048x2048
  slices_S2048x8192_S2048x2048_0_2048 : S2048x8192.Slices ![0, 2048] S2048x2048
  slices_S2048x8192_S2048x2048_0_4096 : S2048x8192.Slices ![0, 4096] S2048x2048
  slices_S2048x8192_S2048x2048_0_6144 : S2048x8192.Slices ![0, 6144] S2048x2048
  bitsLt_bf16_f32 : FTy.bits .bf16 < FTy.bits .f32
  shapeCasts_S8192_S4x2048 : S8192.ShapeCasts S4x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S4x256_S4x256_0_0 : ∀ a, (![0, 0] : Fin 2 → Nat) a + S4x256.size a ≤ S4x256.size a
  h_S4x256 : 0 < S4x256.numel
  shapeCasts_S4x256_S4x256 : S4x256.ShapeCasts S4x256
  slices_S4x256_o0_0_S1x256 : S4x256.Slices ![0, 0] S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1x256_S512x256 : S1x256.Broadcasts S512x256
  slices_S4x256_o1_0_S1x256 : S4x256.Slices ![1, 0] S1x256
  slices_S4x256_o2_0_S1x256 : S4x256.Slices ![2, 0] S1x256
  slices_S4x256_o3_0_S1x256 : S4x256.Slices ![3, 0] S1x256
  inb_S512x256_S512x256_0_0 : ∀ a, (![0, 0] : Fin 2 → Nat) a + S512x256.size a ≤ S512x256.size a
  h_S512x256 : 0 < S512x256.numel
  inb_S4x512x256_S1x512x256_0_0_0 : ∀ a, (![0, 0, 0] : Fin 3 → Nat) a + S1x512x256.size a ≤ S4x512x256.size a
  h_S1x512x256 : 0 < S1x512x256.numel
  shapeCasts_S1x512x256_S512x256 : S1x512x256.ShapeCasts S512x256
  shapeCasts_S512x256_S1x512x256 : S512x256.ShapeCasts S1x512x256
  inb_S4x512x256_S1x512x256_1_0_0 : ∀ a, (![1, 0, 0] : Fin 3 → Nat) a + S1x512x256.size a ≤ S4x512x256.size a
  inb_S4x512x256_S1x512x256_2_0_0 : ∀ a, (![2, 0, 0] : Fin 3 → Nat) a + S1x512x256.size a ≤ S4x512x256.size a
  inb_S4x512x256_S1x512x256_3_0_0 : ∀ a, (![3, 0, 0] : Fin 3 → Nat) a + S1x512x256.size a ≤ S4x512x256.size a
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .bf16 = 32 ∨ (Rect.block (s := S2048x2048) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .bf16 = 32 ∨ (Rect.block (s := S2048x2048) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x2048.size a
  hwx0_10 : ∀ i : grid0.Coords, EltTy.bits .f32 = 32 ∨ (Rect.block (s := S4096x2048) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S4096x2048.size a
  hwx0_11 : ∀ i : grid0.Coords, EltTy.bits .f32 = 32 ∨ (Rect.block (s := S4096x2048) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S4096x2048.size a
  hwx0_12 : ∀ i : grid0.Coords, EltTy.bits .f32 = 32 ∨ (Rect.block (s := S4096x2048) S512x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x256.size a ≤ S4x2048.size a
  hwx0_13 : ∀ i : grid0.Coords, EltTy.bits .f32 = 32 ∨ (Rect.block (s := S4x2048) S4x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4x512x256.size a ≤ S4x4096x2048.size a
  hwx0_14 : ∀ i : grid0.Coords, EltTy.bits .f32 = 32 ∨ (Rect.block (s := S4x4096x2048) S4x512x256.size (cc0_transform_14 i) (hinb0_14 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v18) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S512x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg3) S512x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg4) S512x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v20) S4x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v21) S4x512x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096x8192 : Shape := ⟨2, ![4096, 8192]⟩
abbrev S8192 : Shape := ⟨1, ![8192]⟩
abbrev S4096x4096 : Shape := ⟨2, ![4096, 4096]⟩
abbrev S1x8192 : Shape := ⟨2, ![1, 8192]⟩
abbrev S_ : Shape := ⟨0, ![]⟩
abbrev S1x4096x2048 : Shape := ⟨3, ![1, 4096, 2048]⟩
abbrev S4x4096x2048 : Shape := ⟨3, ![4, 4096, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x8192, .f32⟩
  | .hbm, ⟨6, _⟩ => ⟨S8192, .f32⟩
  | .hbm, ⟨7, _⟩ => ⟨S4096x4096, .f32⟩
  | .hbm, ⟨8, _⟩ => ⟨S4096x8192, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .i1⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S1x4096x2048, .f32⟩
  | .hbm, ⟨61, _⟩ => ⟨S1x4096x2048, .f32⟩
  | .hbm, ⟨62, _⟩ => ⟨S1x4096x2048, .f32⟩
  | .hbm, ⟨63, _⟩ => ⟨S1x4096x2048, .f32⟩
  | .hbm, ⟨64, _⟩ => ⟨S4x4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  bcast_S4096x2048_S1x4096x2048_1_2 : S4096x2048.BroadcastsInDim S1x4096x2048 (![1, 2] : Fin 2 → Fin S1x4096x2048.rank)
  concatenates_S1x4096x2048_S1x4096x2048_S1x4096x2048_S1x4096x2048_S4x4096x2048_d0 : Shape.Concatenates [S1x4096x2048, S1x4096x2048, S1x4096x2048, S1x4096x2048] S4x4096x2048 0
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.CellSpec.lean ====
/-
  The stabilized LSTM step as ONE function of the seven argument arrays, index by index, on the extended reals.

  With `x, h : [4096, 2048]`, the weights `W : [4096, 8192]` (rows `0 … 2047` meet `x`, rows `2048 … 4095` meet `h`;
  columns `g · 2048 + j` belong to gate `g` in the order z, i, f, o) and the bias `B : [8192]`, the pre-activation of
  gate `g` at batch row `b` and unit `j` is

      gate g b j = (∑ₖ x[b,k] · W[k, g·2048+j] + ∑ₖ h[b,k] · W[2048+k, g·2048+j]) + B[g·2048+j].

  From the four pre-activations `z, i, f, o` and the states `c, n, m` at `(b, j)` the step computes
      m' = max (logσ f + m) i,   i' = exp (i − m'),   c' = σ f · c + i' · tanh z,   n' = σ f · n + i',   h' = σ o · (c' / n'),
  where `σ` is the logistic function and `logσ y = −softplus (−y)`, `softplus y = max y 0 + log1p (exp (−|y|))`.
  The result array `[4, 4096, 2048]` stacks `h', c', n', m'`.

  The one law that joins the two arrangements of the contraction: a sum over `Fin 4096` is the sum over its lower half plus
  the sum over its upper half (`sum_halves`) — associativity and commutativity of `+` only, so it holds on all of the
  extended reals and no finiteness is needed.
-/
import Idealize.ShloMosaic.PureOps.Ideal
import Idealize.ShloMosaic.Lib.ValueIdx

noncomputable section

namespace Cert.SLstm

open Idealize.ShloMosaic Idealize.ShloMosaic.ValueIdx

/-- The shape of `x, h, c, n, m`. -/
abbrev SBH : Shape := ⟨2, ![4096, 2048]⟩
/-- The shape of the weights. -/
abbrev SW : Shape := ⟨2, ![4096, 8192]⟩
/-- The shape of the bias. -/
abbrev SBias : Shape := ⟨1, ![8192]⟩
/-- The shape of the stacked result. -/
abbrev SOut : Shape := ⟨3, ![4, 4096, 2048]⟩

/-- Column `g · 2048 + j` of the weights: unit `j` of gate `g`. -/
def col (g : Fin 4) (j : Fin 2048) : Fin 8192 := ⟨g.val * 2048 + j.val, by omega⟩
/-- Weight row `k`: the row that meets `x[·, k]`. -/
def rowX (k : Fin 2048) : Fin 4096 := ⟨k.val, by omega⟩
/-- Weight row `2048 + k`: the row that meets `h[·, k]`. -/
def rowH (k : Fin 2048) : Fin 4096 := ⟨2048 + k.val, by omega⟩

@[simp] theorem col_val (g : Fin 4) (j : Fin 2048) : (col g j).val = g.val * 2048 + j.val := rfl
@[simp] theorem rowX_val (k : Fin 2048) : (rowX k).val = k.val := rfl
@[simp] theorem rowH_val (k : Fin 2048) : (rowH k).val = 2048 + k.val := rfl

/-- The pre-activation of gate `g` at batch row `b`, unit `j`. -/
def gate (x h : FVec Ideal SBH .f32) (W : FVec Ideal SW .f32) (B : FVec Ideal SBias .f32)
    (g : Fin 4) (b : Fin 4096) (j : Fin 2048) : EReal :=
  ((∑ k : Fin 2048, x (ix2 b k) * W (ix2 (rowX k) (col g j)))
    + ∑ k : Fin 2048, h (ix2 b k) * W (ix2 (rowH k) (col g j))) + B (ix1 (col g j))

/-- `softplus y = max y 0 + log (1 + exp (−|y|))`, with `|y| = max y (−y)`. -/
def softplus (y : EReal) : EReal := max y 0 + Ideal.log1p (Ideal.exp (-(max y (-y))))
/-- `log σ(y) = −softplus (−y)`. -/
def logSigmoid (y : EReal) : EReal := -(softplus (-y))
/-- The new stabilizer `m' = max (logσ f + m) i`. -/
def mNew (i f m : EReal) : EReal := max (logSigmoid f + m) i
/-- The stabilized input gate `i' = exp (i − m')`. -/
def iPrime (i f m : EReal) : EReal := Ideal.exp (i - mNew i f m)
/-- The new cell state `c' = σ f · c + i' · tanh z`. -/
def cNew (z i f c m : EReal) : EReal := Ideal.logistic f * c + iPrime i f m * Ideal.tanh z
/-- The new normalizer `n' = σ f · n + i'`. -/
def nNew (i f n m : EReal) : EReal := Ideal.logistic f * n + iPrime i f m
/-- The new hidden state `h' = σ o · (c' / n')`. -/
def hNew (z i f o c n m : EReal) : EReal := Ideal.logistic o * Ideal.div (cNew z i f c m) (nNew i f n m)

/-- Plane `q` of the stacked result: `h', c', n', m'`. -/
def cell (q : Fin 4) (z i f o c n m : EReal) : EReal :=
  match q with
  | 0 => hNew z i f o c n m
  | 1 => cNew z i f c m
  | 2 => nNew i f n m
  | 3 => mNew i f m

/-- The step's result at plane `q`, batch row `b`, unit `j`. -/
def cellAt (x h c n m : FVec Ideal SBH .f32) (W : FVec Ideal SW .f32) (B : FVec Ideal SBias .f32)
    (q : Fin 4) (b : Fin 4096) (j : Fin 2048) : EReal :=
  cell q (gate x h W B 0 b j) (gate x h W B 1 b j) (gate x h W B 2 b j) (gate x h W B 3 b j)
    (c (ix2 b j)) (n (ix2 b j)) (m (ix2 b j))

/-- The whole result array as one function of the argument arrays. -/
def G (x h c n m : FVec Ideal SBH .f32) (W : FVec Ideal SW .f32) (B : FVec Ideal SBias .f32) : FVec Ideal SOut .f32 :=
  fun y => cellAt x h c n m W B (y 0) (y 1) (y 2)

theorem G_ix3 (x h c n m : FVec Ideal SBH .f32) (W : FVec Ideal SW .f32) (B : FVec Ideal SBias .f32)
    (q : Fin 4) (b : Fin 4096) (j : Fin 2048) :
    G x h c n m W B (ix3 q b j) = cellAt x h c n m W B q b j := rfl

/-- An array of the result's shape is `G` as soon as it is `cellAt` at every triple of coordinates. -/
theorem eq_G_of_apply (x h c n m : FVec Ideal SBH .f32) (W : FVec Ideal SW .f32) (B : FVec Ideal SBias .f32)
    (A : FVec Ideal SOut .f32)
    (hA : ∀ (q : Fin 4) (b : Fin 4096) (j : Fin 2048), A (ix3 q b j) = cellAt x h c n m W B q b j) :
    A = G x h c n m W B := by
  funext y
  rw [eq_ix3 y]
  exact hA (y 0) (y 1) (y 2)

/-! ## The scalar laws the two programs' spellings need -/

/-- A sum over `Fin 4096` is the sum over the lower half plus the sum over the upper half. -/
theorem sum_halves (f : Fin 4096 → EReal) :
    ∑ k : Fin 4096, f k = (∑ k : Fin 2048, f (rowX k)) + ∑ k : Fin 2048, f (rowH k) := by
  exact Fin.sum_univ_add (a := 2048) (b := 2048) (f := (f : Fin (2048 + 2048) → EReal))

/-- Subtracting from zero is negation, on every extended real. -/
theorem zero_sub_eq_neg (y : EReal) : (0 : EReal) - y = -y := by
  rw [sub_eq_add_neg, zero_add]

/-- Subtracting zero changes nothing, on every extended real. -/
theorem sub_zero_eq (y : EReal) : y - (0 : EReal) = y := by
  rw [sub_eq_add_neg, neg_zero, add_zero]

/-- "`y ≠ y`" never holds: both spellings of the test (ordered and unordered) answer `0`. -/
theorem cmp_one_self (y : EReal) : Ideal.cmp .one y y = 0#1 := by
  simp [Ideal.cmp]

theorem cmp_une_self (y : EReal) : Ideal.cmp .une y y = 0#1 := by
  simp [Ideal.cmp]

/-- The logistic function IS `1 / (1 + exp (−y))`. -/
theorem logistic_eq (y : EReal) : Ideal.div 1 (1 + Ideal.exp (-y)) = Ideal.logistic y := rfl

end Cert.SLstm

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.KernelCell.lean ====
/-
  The arithmetic of one grid point's body, at the ideal values, entry by entry.

  A point's body sees a 512-row tile of `x` and of `h`, for each of the four gates a 256-column tile of the weight rows that
  meet `x` and of those that meet `h`, the matching 512 × 256 tiles of `c, n, m` and a 4 × 256 tile of the bias (one row per
  gate).  Each gate's pre-activation at row `p`, column `r` of the tile is

      (∑ₖ xTile[p,k] · wx[k,r] + ∑ₖ hTile[p,k] · wh[k,r]) + biasTile[g,r]          (`preK`),

  two block products into zero accumulators, added, plus the bias row broadcast down the rows.  The rest of the body is
  pointwise: it is the stabilized step `Cert.SLstm.cell` of the four pre-activations and the three states at `(p, r)`.
  Three spellings differ from the specification's and are the same function on every extended real: `0 − y` for `−y`,
  `y − 0` for `y`, and a select on "`y ≠ y`", which never holds, so the select always takes its second branch.
  The four stores write the planes `h', c', n', m'` of the 4 × 512 × 256 result tile.
-/
import proofs.«116610_j747324309576_2_alg».proof.Proof.Gen.KernelIdeal.Skeleton
import proofs.«116610_j747324309576_2_alg».proof.Proof.CellSpec
import proofs.«116610_j747324309576_2_alg».proof.Proof.LibPlainDot
import Idealize.ShloMosaic.Lib.ValueLayout
import Idealize.ShloMosaic.Lib.Pipeline.Value
import Idealize.ShloMosaic.PureOps.Ideal.Laws

noncomputable section

namespace Cert.KernelIdeal.Cell

open Cert.KernelIdeal Cert.KernelIdeal.Gen Idealize.ShloMosaic Idealize.ShloMosaic.ValueIdx Cert.SLstm

/-! ## A block product at an entry -/

/-- The left operand's row is the result's row, whatever the contraction position. -/
theorem dot_lhs_row (j : S512x256.Idx) (k : dot_S512x2048_S2048x256_S512x256_1_0_0_1_n_n.contr.Idx) :
    (dot_S512x2048_S2048x256_S512x256_1_0_0_1_n_n.lhsIdx j k 0).val = (j 0).val := by
  have hb : (0 : Fin S512x2048.rank) ∉ dot_S512x2048_S2048x256_S512x256_1_0_0_1_n_n.lhsBatch := by
    show ¬ ((0 : Fin 2) ∈ ([] : List (Fin 2))); exact List.not_mem_nil
  have hn : (0 : Fin S512x2048.rank) ∈ dot_S512x2048_S2048x256_S512x256_1_0_0_1_n_n.lhsNonContracting := by
    show (0 : Fin 2) ∈ ([0] : List (Fin 2)); exact List.mem_singleton.mpr rfl
  unfold DotDims.lhsIdx
  rw [dif_neg hb, dif_pos hn]
  rfl

/-- The right operand's column is the result's column, whatever the contraction position. -/
theorem dot_rhs_col (j : S512x256.Idx) (k : dot_S512x2048_S2048x256_S512x256_1_0_0_1_n_n.contr.Idx) :
    (dot_S512x2048_S2048x256_S512x256_1_0_0_1_n_n.rhsIdx j k 1).val = (j 1).val := by
  have hb : (1 : Fin S2048x256.rank) ∉ dot_S512x2048_S2048x256_S512x256_1_0_0_1_n_n.rhsBatch := by
    show ¬ ((1 : Fin 2) ∈ ([] : List (Fin 2))); exact List.not_mem_nil
  have hn : (1 : Fin S2048x256.rank) ∈ dot_S512x2048_S2048x256_S512x256_1_0_0_1_n_n.rhsNonContracting := by
    show (1 : Fin 2) ∈ ([1] : List (Fin 2)); exact List.mem_singleton.mpr rfl
  unfold DotDims.rhsIdx
  rw [dif_neg hb, dif_pos hn]
  rfl

/-- A 512 × 2048 tile times a 2048 × 256 tile into the zero accumulator, at entry `(p, r)`: the plain sum over `k`. -/
theorem blockDot_apply (l : FVec Ideal S512x2048 .bf16) (w : FVec Ideal S2048x256 .bf16) (p : Fin 512) (r : Fin 256) :
    matmul (F := Ideal) dot_S512x2048_S2048x256_S512x256_1_0_0_1_n_n none l w (constant (F := Ideal) S512x256 .f32 0x00000000#32) (ix2 p r)
      = ∑ k : Fin 2048, l (ix2 p k) * w (ix2 k r) :=
  Cert.LibPlainDot.matmul_zero_apply dot_S512x2048_S2048x256_S512x256_1_0_0_1_n_n rfl rfl rfl rfl dot_lhs_row dot_rhs_col none l w p r

/-! ## A gate's pre-activation inside a tile -/

/-- Gate `g`'s pre-activation at row `p`, column `r` of a tile: the two block products plus the bias tile's row `g`. -/
def preK (v0 v2 : FVec Ideal S512x2048 .bf16) (wx wh : FVec Ideal S2048x256 .bf16) (v4 : FVec Ideal S4x256 .f32)
    (g : Fin 4) (p : Fin 512) (r : Fin 256) : EReal :=
  ((∑ k : Fin 2048, v0 (ix2 p k) * wx (ix2 k r)) + ∑ k : Fin 2048, v2 (ix2 p k) * wh (ix2 k r)) + v4 (ix2 g r)

theorem pay9_pre (v0 v2 : FVec Ideal S512x2048 .bf16) (v4 : FVec Ideal S4x256 .f32) (v7 v10 : FVec Ideal S2048x256 .bf16)
    (p : Fin 512) (r : Fin 256) :
    k0_pay9 (F := Ideal) v0 v2 v4 v7 v10 (ix2 p r) = preK v0 v2 v7 v10 v4 0 p r := by
  simp only [k0_pay9, k0_pay6, k0_pay7, k0_pay8, shapeCast_self, addf_apply, blockDot_apply, broadcastTo_1b_ab_apply]
  rw [slice2_axis0_apply 0 v4 _ (0 : Fin 1) r (0 : Fin 4) rfl]
  rfl

theorem pay10_pre (v0 v2 : FVec Ideal S512x2048 .bf16) (v4 : FVec Ideal S4x256 .f32) (v17 v20 : FVec Ideal S2048x256 .bf16)
    (p : Fin 512) (r : Fin 256) :
    k0_pay10 (F := Ideal) v0 v2 v4 v17 v20 (ix2 p r) = preK v0 v2 v17 v20 v4 1 p r := by
  simp only [k0_pay10, k0_pay6, k0_pay7, k0_pay8, shapeCast_self, addf_apply, blockDot_apply, broadcastTo_1b_ab_apply]
  rw [slice2_axis0_apply 1 v4 _ (0 : Fin 1) r (1 : Fin 4) rfl]
  rfl

theorem pay13_pre (v0 v2 : FVec Ideal S512x2048 .bf16) (v4 : FVec Ideal S4x256 .f32) (v27 v30 : FVec Ideal S2048x256 .bf16)
    (p : Fin 512) (r : Fin 256) :
    k0_pay13 (F := Ideal) (k0_pay11 (F := Ideal) v4) (k0_pay12 (F := Ideal) v0 v2 v27 v30) (ix2 p r) = preK v0 v2 v27 v30 v4 2 p r := by
  simp only [k0_pay13, k0_pay11, k0_pay12, k0_pay6, k0_pay7, k0_pay8, shapeCast_self, addf_apply, blockDot_apply, broadcastTo_1b_ab_apply]
  rw [slice2_axis0_apply 2 v4 _ (0 : Fin 1) r (2 : Fin 4) rfl]
  rfl

/-- The output gate's tile is the logistic function of its pre-activation. -/
theorem pay15_pre (v0 v2 : FVec Ideal S512x2048 .bf16) (v4 : FVec Ideal S4x256 .f32) (v37 v40 : FVec Ideal S2048x256 .bf16)
    (p : Fin 512) (r : Fin 256) :
    k0_pay15 (F := Ideal) (k0_pay6 (F := Ideal) v0) (k0_pay7 (F := Ideal) v2) (k0_pay8 (F := Ideal) v4) v37 v40 (ix2 p r)
      = Ideal.logistic (preK v0 v2 v37 v40 v4 3 p r) := by
  unfold k0_pay15
  show Ideal.logistic _ = Ideal.logistic _
  congr 1
  simp only [k0_pay6, k0_pay7, k0_pay8, shapeCast_self, addf_apply, blockDot_apply, broadcastTo_1b_ab_apply]
  rw [slice2_axis0_apply 3 v4 _ (0 : Fin 1) r (3 : Fin 4) rfl]
  rfl

/-! ## The pointwise chain, as scalar functions -/

/-- The body's spelling of `log σ(f)`, over the zero word's value `z0`. -/
def kLogSig (z0 f : EReal) : EReal :=
  z0 - Scalar.select (Ideal.cmp .one ((z0 - f) - z0) ((z0 - f) - z0)) ((z0 - f) + z0)
    (max (z0 - f) z0 + Ideal.log1p (Ideal.exp (z0 - max ((z0 - f) - z0) (-((z0 - f) - z0)))))

/-- With `z0 = 0` it is the specification's `log σ`: the test "`y ≠ y`" fails, `0 − y = −y`, `y − 0 = y`. -/
theorem kLogSig_zero (f : EReal) : kLogSig 0 f = logSigmoid f := by
  unfold kLogSig
  simp only [cmp_one_self, select_zero, zero_sub_eq_neg, sub_zero_eq]
  rfl

theorem pay16_apply (v25 : FVec Ideal S512x256 .f32) (v26 : FVec Ideal S1x256 .f32) (v33 v48 : FVec Ideal S512x256 .f32)
    (j : S512x256.Idx) :
    k0_pay16 (F := Ideal) v25 v26 v33 v48 j
      = max (kLogSig (Ideal.ofBits .f32 0x00000000#32) (k0_pay13 (F := Ideal) v26 v33 j) + v48 j) (v25 j) := rfl

/-- The new stabilizer's tile. -/
theorem pay16_eq (v25 : FVec Ideal S512x256 .f32) (v26 : FVec Ideal S1x256 .f32) (v33 v48 : FVec Ideal S512x256 .f32)
    (j : S512x256.Idx) :
    k0_pay16 (F := Ideal) v25 v26 v33 v48 j = mNew (v25 j) (k0_pay13 (F := Ideal) v26 v33 j) (v48 j) := by
  rw [pay16_apply, Ideal.ofBits_zero_f32, kLogSig_zero]
  rfl

/-- The stabilized input gate's tile. -/
theorem pay17_eq (v25 : FVec Ideal S512x256 .f32) (v26 : FVec Ideal S1x256 .f32) (v33 v48 : FVec Ideal S512x256 .f32)
    (j : S512x256.Idx) :
    k0_pay17 (F := Ideal) v25 v26 v33 v48 j = iPrime (v25 j) (k0_pay13 (F := Ideal) v26 v33 j) (v48 j) := by
  show Ideal.exp (v25 j - k0_pay16 (F := Ideal) v25 v26 v33 v48 j) = _
  rw [pay16_eq]
  rfl

/-- The forget gate's tile. -/
theorem pay14_eq (v26 : FVec Ideal S1x256 .f32) (v33 : FVec Ideal S512x256 .f32) (j : S512x256.Idx) :
    k0_pay14 (F := Ideal) v26 v33 j = Ideal.logistic (k0_pay13 (F := Ideal) v26 v33 j) := rfl

/-- The new cell state's tile. -/
theorem pay18_eq (v15 v25 : FVec Ideal S512x256 .f32) (v26 : FVec Ideal S1x256 .f32) (v33 v46 v48 : FVec Ideal S512x256 .f32)
    (j : S512x256.Idx) :
    k0_pay18 (F := Ideal) v15 v25 v26 v33 v46 v48 j
      = cNew (v15 j) (v25 j) (k0_pay13 (F := Ideal) v26 v33 j) (v46 j) (v48 j) := by
  show k0_pay14 (F := Ideal) v26 v33 j * v46 j + k0_pay17 (F := Ideal) v25 v26 v33 v48 j * Ideal.tanh (v15 j) = _
  rw [pay17_eq, pay14_eq]
  rfl

/-- The new normalizer's tile. -/
theorem pay1_19_eq (v25 : FVec Ideal S512x256 .f32) (v26 : FVec Ideal S1x256 .f32) (v33 v47 v48 : FVec Ideal S512x256 .f32)
    (j : S512x256.Idx) :
    k0_pay1 (F := Ideal) (k0_pay17 (F := Ideal) v25 v26 v33 v48) (k0_pay19 (F := Ideal) v26 v33 v47) j
      = nNew (v25 j) (k0_pay13 (F := Ideal) v26 v33 j) (v47 j) (v48 j) := by
  show k0_pay14 (F := Ideal) v26 v33 j * v47 j + k0_pay17 (F := Ideal) v25 v26 v33 v48 j = _
  rw [pay17_eq, pay14_eq]
  rfl

end Cert.KernelIdeal.Cell

end
-- ==== Proof.KernelTile.lean ====
/-
  One grid point's result tile as ONE function of its input tiles, and that function as the specification's `G`.

  The body's four stores write the planes `h', c', n', m'` of the 4 × 512 × 256 result tile: plane `q` at row `p`, column `r`
  is `Cert.SLstm.cell q` of the four gate pre-activations of the tile (`preK`) and of the three state tiles at `(p, r)`
  (`tileCell`; the tile the body leaves is its stores read back, each store the restriction of `tileCell` to its plane).
  When the input tiles are the restrictions of the arrays that the point's block indices `bi` (batch rows) and `hi` (units)
  name — rows `bi·512 + p` of `x, h, c, n, m`; columns `g·2048 + hi·256 + r` of the weights, rows `k` and `2048 + k`; the
  bias at `g·2048 + hi·256 + r` — the tile at `(q, p, r)` is `G` at `(q, bi·512 + p, hi·256 + r)`: the sums agree term by term.
-/
import proofs.«116610_j747324309576_2_alg».proof.Proof.Gen.KernelIdeal.Frame
import proofs.«116610_j747324309576_2_alg».proof.Proof.KernelCell

noncomputable section

namespace Cert.KernelIdeal.Tile

open Cert.KernelIdeal Cert.KernelIdeal.Gen Idealize.ShloMosaic Idealize.ShloMosaic.ValueIdx Cert.SLstm Cert.KernelIdeal.Cell

/-- The result tile of one grid point, from its input tiles. -/
def tileCell (x0 x1 : FVec Ideal S512x2048 .bf16) (x2 x3 x4 x5 x6 x7 x8 x9 : FVec Ideal S2048x256 .bf16)
    (x10 x11 x12 : FVec Ideal S512x256 .f32) (x13 : FVec Ideal S4x256 .f32) : FVec Ideal S4x512x256 .f32 := fun y =>
  cell (y 0) (preK x0 x1 x2 x6 x13 0 (y 1) (y 2)) (preK x0 x1 x3 x7 x13 1 (y 1) (y 2)) (preK x0 x1 x4 x8 x13 2 (y 1) (y 2))
    (preK x0 x1 x5 x9 x13 3 (y 1) (y 2)) (x10 (ix2 (y 1) (y 2))) (x11 (ix2 (y 1) (y 2))) (x12 (ix2 (y 1) (y 2)))

/-- Plane `o` of the tile, as a rectangle, places its local index `(0, p, r)` at `(o, p, r)`. -/
theorem unit_plane_emb (o : Nat) (inb : ∀ a, (![o, 0, 0] : Fin 3 → Nat) a + S1x512x256.size a ≤ S4x512x256.size a)
    (q : Fin 4) (hq : q.val = o) (u : Fin 1) (p : Fin 512) (r : Fin 256) :
    (Rect.unit (s := S4x512x256) ![o, 0, 0] S1x512x256.size inb).emb (ix3 u p r) = ix3 q p r := by
  funext a; apply Fin.ext
  have hu : u.val = 0 := by omega
  match a with
  | ⟨0, _⟩ => show o + 1 * u.val = q.val; omega
  | ⟨1, _⟩ => show 0 + 1 * p.val = p.val; omega
  | ⟨2, _⟩ => show 0 + 1 * r.val = r.val; omega

/-- The stored plane of `m'`. -/
theorem plane3 (x0 x1 : FVec Ideal S512x2048 .bf16) (x2 x3 x4 x5 x6 x7 x8 x9 : FVec Ideal S2048x256 .bf16)
    (x10 x11 x12 : FVec Ideal S512x256 .f32) (x13 : FVec Ideal S4x256 .f32) (u : Fin 1) (p : Fin 512) (r : Fin 256) :
    k0_pay5 (F := Ideal) (k0_pay16 (F := Ideal) (k0_pay10 (F := Ideal) x0 x1 x13 x3 x7) (k0_pay11 (F := Ideal) x13) (k0_pay12 (F := Ideal) x0 x1 x4 x8) x12) (ix3 u p r) = tileCell x0 x1 x2 x3 x4 x5 x6 x7 x8 x9 x10 x11 x12 x13 (ix3 3 p r) := by
  simp only [k0_pay5, shapeCast_ab_1ab_apply, pay16_eq, pay10_pre, pay13_pre]
  rfl

/-- The stored plane of `n'`. -/
theorem plane2 (x0 x1 : FVec Ideal S512x2048 .bf16) (x2 x3 x4 x5 x6 x7 x8 x9 : FVec Ideal S2048x256 .bf16)
    (x10 x11 x12 : FVec Ideal S512x256 .f32) (x13 : FVec Ideal S4x256 .f32) (u : Fin 1) (p : Fin 512) (r : Fin 256) :
    k0_pay4 (F := Ideal) (k0_pay17 (F := Ideal) (k0_pay10 (F := Ideal) x0 x1 x13 x3 x7) (k0_pay11 (F := Ideal) x13) (k0_pay12 (F := Ideal) x0 x1 x4 x8) x12) (k0_pay19 (F := Ideal) (k0_pay11 (F := Ideal) x13) (k0_pay12 (F := Ideal) x0 x1 x4 x8) x11) (ix3 u p r) = tileCell x0 x1 x2 x3 x4 x5 x6 x7 x8 x9 x10 x11 x12 x13 (ix3 2 p r) := by
  simp only [k0_pay4, shapeCast_ab_1ab_apply, pay1_19_eq, pay10_pre, pay13_pre]
  rfl

/-- The stored plane of `c'`. -/
theorem plane1 (x0 x1 : FVec Ideal S512x2048 .bf16) (x2 x3 x4 x5 x6 x7 x8 x9 : FVec Ideal S2048x256 .bf16)
    (x10 x11 x12 : FVec Ideal S512x256 .f32) (x13 : FVec Ideal S4x256 .f32) (u : Fin 1) (p : Fin 512) (r : Fin 256) :
    k0_pay3 (F := Ideal) (k0_pay18 (F := Ideal) (k0_pay9 (F := Ideal) x0 x1 x13 x2 x6) (k0_pay10 (F := Ideal) x0 x1 x13 x3 x7) (k0_pay11 (F := Ideal) x13) (k0_pay12 (F := Ideal) x0 x1 x4 x8) x10 x12) (ix3 u p r) = tileCell x0 x1 x2 x3 x4 x5 x6 x7 x8 x9 x10 x11 x12 x13 (ix3 1 p r) := by
  simp only [k0_pay3, shapeCast_ab_1ab_apply, pay18_eq, pay9_pre, pay10_pre, pay13_pre]
  rfl

/-- The stored plane of `h'`. -/
theorem plane0 (x0 x1 : FVec Ideal S512x2048 .bf16) (x2 x3 x4 x5 x6 x7 x8 x9 : FVec Ideal S2048x256 .bf16)
    (x10 x11 x12 : FVec Ideal S512x256 .f32) (x13 : FVec Ideal S4x256 .f32) (u : Fin 1) (p : Fin 512) (r : Fin 256) :
    k0_pay2 (F := Ideal) (k0_pay15 (F := Ideal) (k0_pay6 (F := Ideal) x0) (k0_pay7 (F := Ideal) x1) (k0_pay8 (F := Ideal) x13) x5 x9) (k0_pay17 (F := Ideal) (k0_pay10 (F := Ideal) x0 x1 x13 x3 x7) (k0_pay11 (F := Ideal) x13) (k0_pay12 (F := Ideal) x0 x1 x4 x8) x12) (k0_pay18 (F := Ideal) (k0_pay9 (F := Ideal) x0 x1 x13 x2 x6) (k0_pay10 (F := Ideal) x0 x1 x13 x3 x7) (k0_pay11 (F := Ideal) x13) (k0_pay12 (F := Ideal) x0 x1 x4 x8) x10 x12) (k0_pay19 (F := Ideal) (k0_pay11 (F := Ideal) x13) (k0_pay12 (F := Ideal) x0 x1 x4 x8) x11) (ix3 u p r) = tileCell x0 x1 x2 x3 x4 x5 x6 x7 x8 x9 x10 x11 x12 x13 (ix3 0 p r) := by
  simp only [k0_pay2, shapeCast_ab_1ab_apply, mulf_apply, divf_apply, pay15_pre, pay18_eq, pay1_19_eq, pay9_pre, pay10_pre, pay13_pre]
  rfl

theorem hz2 : (![0, 0] : Fin 2 → Nat) = fun _ => 0 := funext fun a => by fin_cases a <;> rfl

/-- The tile the body leaves — its four stores read back — is `tileCell` of the input tiles. -/
theorem out0_14_eq (x0 x1 : FVec Ideal S512x2048 .bf16) (x2 x3 x4 x5 x6 x7 x8 x9 : FVec Ideal S2048x256 .bf16)
    (x10 x11 x12 : FVec Ideal S512x256 .f32) (x13 : FVec Ideal S4x256 .f32) :
    out0_14 (F := Ideal) x0 x1 x2 x3 x4 x5 x6 x7 x8 x9 x10 x11 x12 x13 = tileCell x0 x1 x2 x3 x4 x5 x6 x7 x8 x9 x10 x11 x12 x13 := by
  funext y
  unfold out0_14
  simp only [View.ld_unit_zero (S := S512x2048) hz2, View.ld_unit_zero (S := S4x256) hz2,
    View.ld_unit_zero (S := S2048x256) hz2, View.ld_unit_zero (S := S512x256) hz2]
  refine View.canon_apply_of_pieces (Val := Elt Ideal) (tileCell x0 x1 x2 x3 x4 x5 x6 x7 x8 x9 x10 x11 x12 x13) _ ?_ y (cover0_14 _ _ _ _ y)
  intro pc hpc
  simp only [List.mem_cons, List.mem_singleton, List.not_mem_nil, or_false] at hpc
  rcases hpc with rfl | rfl | rfl | rfl
  · intro x
    obtain ⟨u, p, r, rfl⟩ : ∃ (u : Fin 1) (p : Fin 512) (r : Fin 256), x = ix3 u p r := ⟨x 0, x 1, x 2, eq_ix3 x⟩
    refine (plane3 x0 x1 x2 x3 x4 x5 x6 x7 x8 x9 x10 x11 x12 x13 u p r).trans (congrArg (tileCell x0 x1 x2 x3 x4 x5 x6 x7 x8 x9 x10 x11 x12 x13) ?_)
    exact (unit_plane_emb 3 (by decide) (3 : Fin 4) rfl u p r).symm
  · intro x
    obtain ⟨u, p, r, rfl⟩ : ∃ (u : Fin 1) (p : Fin 512) (r : Fin 256), x = ix3 u p r := ⟨x 0, x 1, x 2, eq_ix3 x⟩
    refine (plane2 x0 x1 x2 x3 x4 x5 x6 x7 x8 x9 x10 x11 x12 x13 u p r).trans (congrArg (tileCell x0 x1 x2 x3 x4 x5 x6 x7 x8 x9 x10 x11 x12 x13) ?_)
    exact (unit_plane_emb 2 (by decide) (2 : Fin 4) rfl u p r).symm
  · intro x
    obtain ⟨u, p, r, rfl⟩ : ∃ (u : Fin 1) (p : Fin 512) (r : Fin 256), x = ix3 u p r := ⟨x 0, x 1, x 2, eq_ix3 x⟩
    refine (plane1 x0 x1 x2 x3 x4 x5 x6 x7 x8 x9 x10 x11 x12 x13 u p r).trans (congrArg (tileCell x0 x1 x2 x3 x4 x5 x6 x7 x8 x9 x10 x11 x12 x13) ?_)
    exact (unit_plane_emb 1 (by decide) (1 : Fin 4) rfl u p r).symm
  · intro x
    obtain ⟨u, p, r, rfl⟩ : ∃ (u : Fin 1) (p : Fin 512) (r : Fin 256), x = ix3 u p r := ⟨x 0, x 1, x 2, eq_ix3 x⟩
    refine (plane0 x0 x1 x2 x3 x4 x5 x6 x7 x8 x9 x10 x11 x12 x13 u p r).trans (congrArg (tileCell x0 x1 x2 x3 x4 x5 x6 x7 x8 x9 x10 x11 x12 x13) ?_)
    exact (unit_plane_emb 0 (by decide) (0 : Fin 4) rfl u p r).symm

/-! ## The tile is `G` at the global index -/

/-- Batch row `bi · 512 + p`. -/
def rowOf (bi : Nat) (hbi : bi ≤ 7) (p : Fin 512) : Fin 4096 := ⟨bi * 512 + p.val, by have := p.isLt; omega⟩
/-- Unit `hi · 256 + r`. -/
def colOf (hi : Nat) (hhi : hi ≤ 7) (r : Fin 256) : Fin 2048 := ⟨hi * 256 + r.val, by have := r.isLt; omega⟩

theorem tileCell_eq_G (X H C N M : FVec Ideal SBH .f32) (W : FVec Ideal SW .f32) (B : FVec Ideal SBias .f32)
    (bi hi : Nat) (hbi : bi ≤ 7) (hhi : hi ≤ 7) (x0 x1 : FVec Ideal S512x2048 .bf16) (x2 x3 x4 x5 x6 x7 x8 x9 : FVec Ideal S2048x256 .bf16)
    (x10 x11 x12 : FVec Ideal S512x256 .f32) (x13 : FVec Ideal S4x256 .f32)
    (h0 : ∀ (p : Fin 512) (k : Fin 2048), x0 (ix2 p k) = X (ix2 (rowOf bi hbi p) k))
    (h1 : ∀ (p : Fin 512) (k : Fin 2048), x1 (ix2 p k) = H (ix2 (rowOf bi hbi p) k))
    (h2 : ∀ (k : Fin 2048) (r : Fin 256), x2 (ix2 k r) = W (ix2 (rowX k) (col 0 (colOf hi hhi r))))
    (h3 : ∀ (k : Fin 2048) (r : Fin 256), x3 (ix2 k r) = W (ix2 (rowX k) (col 1 (colOf hi hhi r))))
    (h4 : ∀ (k : Fin 2048) (r : Fin 256), x4 (ix2 k r) = W (ix2 (rowX k) (col 2 (colOf hi hhi r))))
    (h5 : ∀ (k : Fin 2048) (r : Fin 256), x5 (ix2 k r) = W (ix2 (rowX k) (col 3 (colOf hi hhi r))))
    (h6 : ∀ (k : Fin 2048) (r : Fin 256), x6 (ix2 k r) = W (ix2 (rowH k) (col 0 (colOf hi hhi r))))
    (h7 : ∀ (k : Fin 2048) (r : Fin 256), x7 (ix2 k r) = W (ix2 (rowH k) (col 1 (colOf hi hhi r))))
    (h8 : ∀ (k : Fin 2048) (r : Fin 256), x8 (ix2 k r) = W (ix2 (rowH k) (col 2 (colOf hi hhi r))))
    (h9 : ∀ (k : Fin 2048) (r : Fin 256), x9 (ix2 k r) = W (ix2 (rowH k) (col 3 (colOf hi hhi r))))
    (h10 : ∀ (p : Fin 512) (r : Fin 256), x10 (ix2 p r) = C (ix2 (rowOf bi hbi p) (colOf hi hhi r)))
    (h11 : ∀ (p : Fin 512) (r : Fin 256), x11 (ix2 p r) = N (ix2 (rowOf bi hbi p) (colOf hi hhi r)))
    (h12 : ∀ (p : Fin 512) (r : Fin 256), x12 (ix2 p r) = M (ix2 (rowOf bi hbi p) (colOf hi hhi r)))
    (h13 : ∀ (g : Fin 4) (r : Fin 256), x13 (ix2 g r) = B (ix1 (col g (colOf hi hhi r))))
    (q : Fin 4) (p : Fin 512) (r : Fin 256) :
    tileCell x0 x1 x2 x3 x4 x5 x6 x7 x8 x9 x10 x11 x12 x13 (ix3 q p r) = G X H C N M W B (ix3 q (rowOf bi hbi p) (colOf hi hhi r)) := by
  have hg : ∀ (g : Fin 4) (wx wh : FVec Ideal S2048x256 .bf16)
      (_ : ∀ (k : Fin 2048) (r : Fin 256), wx (ix2 k r) = W (ix2 (rowX k) (col g (colOf hi hhi r))))
      (_ : ∀ (k : Fin 2048) (r : Fin 256), wh (ix2 k r) = W (ix2 (rowH k) (col g (colOf hi hhi r)))),
      preK x0 x1 wx wh x13 g p r = gate X H W B g (rowOf bi hbi p) (colOf hi hhi r) := by
    intro g wx wh hx hh
    unfold preK gate
    rw [h13 g r]
    congr 1
    congr 1
    · exact Finset.sum_congr rfl fun k _ => by rw [h0 p k, hx k r]
    · exact Finset.sum_congr rfl fun k _ => by rw [h1 p k, hh k r]
  rw [G_ix3]
  show cell q (preK x0 x1 x2 x6 x13 0 p r) (preK x0 x1 x3 x7 x13 1 p r) (preK x0 x1 x4 x8 x13 2 p r) (preK x0 x1 x5 x9 x13 3 p r)
      (x10 (ix2 p r)) (x11 (ix2 p r)) (x12 (ix2 p r)) = _
  unfold cellAt
  rw [hg 0 x2 x6 h2 h6, hg 1 x3 x7 h3 h7, hg 2 x4 x8 h4 h8, hg 3 x5 x9 h5 h9, h10 p r, h11 p r, h12 p r]

end Cert.KernelIdeal.Tile

end
-- ==== Proof.KernelHost.lean ====
/-
  What the region finds in each staged array, in the arguments, at an index and at the ideal values.

  Before the region the program cuts the weights into their `x`-rows `0 … 2047` and `h`-rows `2048 … 4095` and each of
  those into the four gates' column ranges `g·2048 … g·2048 + 2047`, changes the format of the eight pieces and of `x` and
  `h` (the identity on the extended reals), and reads the bias as a 4 × 2048 array in row-major order, so that its entry
  `(g, j)` is the bias at `g·2048 + j`.
-/
import proofs.«116610_j747324309576_2_alg».proof.Proof.Gen.KernelIdeal.Frame
import proofs.«116610_j747324309576_2_alg».proof.Proof.CellSpec
import Idealize.ShloMosaic.Lib.ValueLayout
import Idealize.ShloMosaic.Lib.Pipeline.Value
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo Cert.SLstm

variable (m : (ℓ : Loc nD τ sig) → Buf (Elt Ideal) ℓ)

/-- The staged copy of `x` is `x`. -/
theorem V_x (c : Dev nD) (i : S4096x2048.Idx) :
    V (F := Ideal) m c main_v18 i = m ((c : Thread nD τ).loc main_arg0) i := by
  dsimp only [V, hostOps0]
  after_results
  rfl

/-- The staged copy of `h` is `h`. -/
theorem V_h (c : Dev nD) (i : S4096x2048.Idx) :
    V (F := Ideal) m c main_v19 i = m ((c : Thread nD τ).loc main_arg1) i := by
  dsimp only [V, hostOps0]
  after_results
  rfl

/-- The staged `x`-side weights of gate z: rows `k`, columns `0·2048 + j` of `W`. -/
theorem V_wx0 (c : Dev nD) (k : Fin 2048) (j : Fin 2048) :
    V (F := Ideal) m c main_v10 (ix2 k j) = m ((c : Thread nD τ).loc main_arg5) (ix2 (rowX k) (col 0 j)) := by
  dsimp only [V, hostOps0]
  after_results
  rw [truncf_apply]
  rw [slice2_axis1_apply 0 _ _ k j (col 0 j) rfl, slice2_axis0_apply 0 _ _ k (col 0 j) (rowX k) (Nat.zero_add _).symm]
  try rfl

/-- The staged `h`-side weights of gate z: rows `2048 + k`, columns `0·2048 + j` of `W`. -/
theorem V_wh0 (c : Dev nD) (k : Fin 2048) (j : Fin 2048) :
    V (F := Ideal) m c main_v14 (ix2 k j) = m ((c : Thread nD τ).loc main_arg5) (ix2 (rowH k) (col 0 j)) := by
  dsimp only [V, hostOps0]
  after_results
  rw [truncf_apply]
  rw [slice2_axis1_apply 0 _ _ k j (col 0 j) rfl, slice2_axis0_apply 2048 _ _ k (col 0 j) (rowH k) rfl]
  try rfl

/-- The staged `x`-side weights of gate i: rows `k`, columns `1·2048 + j` of `W`. -/
theorem V_wx1 (c : Dev nD) (k : Fin 2048) (j : Fin 2048) :
    V (F := Ideal) m c main_v11 (ix2 k j) = m ((c : Thread nD τ).loc main_arg5) (ix2 (rowX k) (col 1 j)) := by
  dsimp only [V, hostOps0]
  after_results
  rw [truncf_apply]
  rw [slice2_axis1_apply 2048 _ _ k j (col 1 j) rfl, slice2_axis0_apply 0 _ _ k (col 1 j) (rowX k) (Nat.zero_add _).symm]
  try rfl

/-- The staged `h`-side weights of gate i: rows `2048 + k`, columns `1·2048 + j` of `W`. -/
theorem V_wh1 (c : Dev nD) (k : Fin 2048) (j : Fin 2048) :
    V (F := Ideal) m c main_v15 (ix2 k j) = m ((c : Thread nD τ).loc main_arg5) (ix2 (rowH k) (col 1 j)) := by
  dsimp only [V, hostOps0]
  after_results
  rw [truncf_apply]
  rw [slice2_axis1_apply 2048 _ _ k j (col 1 j) rfl, slice2_axis0_apply 2048 _ _ k (col 1 j) (rowH k) rfl]
  try rfl

/-- The staged `x`-side weights of gate f: rows `k`, columns `2·2048 + j` of `W`. -/
theorem V_wx2 (c : Dev nD) (k : Fin 2048) (j : Fin 2048) :
    V (F := Ideal) m c main_v12 (ix2 k j) = m ((c : Thread nD τ).loc main_arg5) (ix2 (rowX k) (col 2 j)) := by
  dsimp only [V, hostOps0]
  after_results
  rw [truncf_apply]
  rw [slice2_axis1_apply 4096 _ _ k j (col 2 j) rfl, slice2_axis0_apply 0 _ _ k (col 2 j) (rowX k) (Nat.zero_add _).symm]
  try rfl

/-- The staged `h`-side weights of gate f: rows `2048 + k`, columns `2·2048 + j` of `W`. -/
theorem V_wh2 (c : Dev nD) (k : Fin 2048) (j : Fin 2048) :
    V (F := Ideal) m c main_v16 (ix2 k j) = m ((c : Thread nD τ).loc main_arg5) (ix2 (rowH k) (col 2 j)) := by
  dsimp only [V, hostOps0]
  after_results
  rw [truncf_apply]
  rw [slice2_axis1_apply 4096 _ _ k j (col 2 j) rfl, slice2_axis0_apply 2048 _ _ k (col 2 j) (rowH k) rfl]
  try rfl

/-- The staged `x`-side weights of gate o: rows `k`, columns `3·2048 + j` of `W`. -/
theorem V_wx3 (c : Dev nD) (k : Fin 2048) (j : Fin 2048) :
    V (F := Ideal) m c main_v13 (ix2 k j) = m ((c : Thread nD τ).loc main_arg5) (ix2 (rowX k) (col 3 j)) := by
  dsimp only [V, hostOps0]
  after_results
  rw [truncf_apply]
  rw [slice2_axis1_apply 6144 _ _ k j (col 3 j) rfl, slice2_axis0_apply 0 _ _ k (col 3 j) (rowX k) (Nat.zero_add _).symm]
  try rfl

/-- The staged `h`-side weights of gate o: rows `2048 + k`, columns `3·2048 + j` of `W`. -/
theorem V_wh3 (c : Dev nD) (k : Fin 2048) (j : Fin 2048) :
    V (F := Ideal) m c main_v17 (ix2 k j) = m ((c : Thread nD τ).loc main_arg5) (ix2 (rowH k) (col 3 j)) := by
  dsimp only [V, hostOps0]
  after_results
  rw [truncf_apply]
  rw [slice2_axis1_apply 6144 _ _ k j (col 3 j) rfl, slice2_axis0_apply 2048 _ _ k (col 3 j) (rowH k) rfl]
  try rfl

/-- The staged bias, a 4 × 2048 array: entry `(g, j)` is the bias at `g·2048 + j`. -/
theorem V_bias (c : Dev nD) (g : Fin 4) (j : Fin 2048) :
    V (F := Ideal) m c main_v20 (ix2 g j) = m ((c : Thread nD τ).loc main_arg6) (ix1 (col g j)) := by
  dsimp only [V, hostOps0]
  after_results
  exact shapeCast_apply (m ((c : Thread nD τ).loc main_arg6)) _ (ix2 g j) (ix1 (col g j)) (by
    show ((⟨1, ![8192]⟩ : Shape).rowMajor (ix1 (col g j))).val = ((⟨2, ![4, 2048]⟩ : Shape).rowMajor (ix2 g j)).val
    rw [Shape.rowMajor_val_one, Shape.rowMajor_val_two]
    show (col g j).val = g.val * 2048 + j.val
    rfl)

end Cert.KernelIdeal.HostSide

end
-- ==== Proof.KernelBlocks.lean ====
/-
  From the grid points' tiles to the whole result array, and the kernel's run with its result named.

  The grid is 8 × 8: its first coordinate `hi` names a tile of 256 units, its second `bi` a tile of 512 batch rows.  Point
  `(hi, bi)` stages rows `bi·512 …` of `x` and `h`, columns `hi·256 …` of each of the eight weight pieces and of the 4 × 2048
  bias, the `(bi, hi)` tile of `c, n, m`, and writes back the `(·, bi, hi)` tile of the result (the index maps' relations are
  decided once over the 64 points).  So what a point writes back is that tile of `G` of the argument arrays; the 64 tiles
  cover the result array — the point that covers row `b`, unit `j` is `(j / 256, b / 512)` —, hence the array ends as `G`.
-/
import proofs.«116610_j747324309576_2_alg».proof.Proof.Gen.KernelIdeal.Value
import proofs.«116610_j747324309576_2_alg».proof.Proof.KernelTile
import proofs.«116610_j747324309576_2_alg».proof.Proof.KernelHost

noncomputable section

namespace Cert.KernelIdeal.Blocks

open Cert.KernelIdeal Cert.KernelIdeal.Gen Idealize.ShloMosaic Idealize.ShloMosaic.TcCoe Idealize.ShloMosaic.ValueIdx
open Idealize.SL.Sem Cert.SLstm Cert.KernelIdeal.Tile Cert.KernelIdeal.HostSide
open Idealize.ShloMosaic.Pipeline (Dat)

variable (m : (ℓ : Loc nD τ sig) → Buf (Elt Ideal) ℓ) (ρ : Dev nD → PrngReg)

/-! ## The index maps, decided over the grid -/

/-- The result's tile is `(0, bi, hi)` with `bi, hi ≤ 7`. -/
theorem idx_out : ∀ t : Fin cfg0.N, win0_14.index t (0 : Fin 3) = 0 ∧ win0_14.index t (1 : Fin 3) ≤ 7 ∧ win0_14.index t (2 : Fin 3) ≤ 7 :=
  (by decide +kernel : ∀ t : Fin grid0.N, _)

/-- The tiles of `x` and `h` are `(bi, 0)`. -/
theorem idx_rows : ∀ t : Fin cfg0.N, win0_0.index t (0 : Fin 2) = win0_14.index t (1 : Fin 3) ∧ win0_0.index t (1 : Fin 2) = 0
    ∧ win0_1.index t (0 : Fin 2) = win0_14.index t (1 : Fin 3) ∧ win0_1.index t (1 : Fin 2) = 0 :=
  (by decide +kernel : ∀ t : Fin grid0.N, _)

/-- The tiles of the eight weight pieces are `(0, hi)`. -/
theorem idx_weights : ∀ t : Fin cfg0.N, win0_2.index t (0 : Fin 2) = 0 ∧ win0_2.index t (1 : Fin 2) = win0_14.index t (2 : Fin 3)
    ∧ win0_3.index t (0 : Fin 2) = 0 ∧ win0_3.index t (1 : Fin 2) = win0_14.index t (2 : Fin 3)
    ∧ win0_4.index t (0 : Fin 2) = 0 ∧ win0_4.index t (1 : Fin 2) = win0_14.index t (2 : Fin 3)
    ∧ win0_5.index t (0 : Fin 2) = 0 ∧ win0_5.index t (1 : Fin 2) = win0_14.index t (2 : Fin 3)
    ∧ win0_6.index t (0 : Fin 2) = 0 ∧ win0_6.index t (1 : Fin 2) = win0_14.index t (2 : Fin 3)
    ∧ win0_7.index t (0 : Fin 2) = 0 ∧ win0_7.index t (1 : Fin 2) = win0_14.index t (2 : Fin 3)
    ∧ win0_8.index t (0 : Fin 2) = 0 ∧ win0_8.index t (1 : Fin 2) = win0_14.index t (2 : Fin 3)
    ∧ win0_9.index t (0 : Fin 2) = 0 ∧ win0_9.index t (1 : Fin 2) = win0_14.index t (2 : Fin 3) :=
  (by decide +kernel : ∀ t : Fin grid0.N, _)

/-- The tiles of `c, n, m` are `(bi, hi)`. -/
theorem idx_states : ∀ t : Fin cfg0.N, win0_10.index t (0 : Fin 2) = win0_14.index t (1 : Fin 3) ∧ win0_10.index t (1 : Fin 2) = win0_14.index t (2 : Fin 3)
    ∧ win0_11.index t (0 : Fin 2) = win0_14.index t (1 : Fin 3) ∧ win0_11.index t (1 : Fin 2) = win0_14.index t (2 : Fin 3)
    ∧ win0_12.index t (0 : Fin 2) = win0_14.index t (1 : Fin 3) ∧ win0_12.index t (1 : Fin 2) = win0_14.index t (2 : Fin 3) :=
  (by decide +kernel : ∀ t : Fin grid0.N, _)

/-- The tile of the bias is `(0, hi)`. -/
theorem idx_bias : ∀ t : Fin cfg0.N, win0_13.index t (0 : Fin 2) = 0 ∧ win0_13.index t (1 : Fin 2) = win0_14.index t (2 : Fin 3) :=
  (by decide +kernel : ∀ t : Fin grid0.N, _)

/-- Every tile `(0, q1, q2)` of the result is some point's. -/
theorem idx_onto : ∀ (q1 : Fin 8) (q2 : Fin 8), ∃ t : Fin cfg0.N, win0_14.index t = ![0, q1.val, q2.val] :=
  (by decide +kernel : ∀ (q1 : Fin 8) (q2 : Fin 8), ∃ t : Fin grid0.N, win0_14.index t = ![0, q1.val, q2.val])

/-! ## Where a tile's local index sits in its array: tile index × tile size + the local coordinate -/

theorem emb_w0 (t : Fin cfg0.N) (hbi : win0_14.index t (1 : Fin 3) ≤ 7) (p : Fin 512) (k : Fin 2048) :
    ((cfg0.win 0).blk t).view.emb (ix2 p k) = ix2 (rowOf (win0_14.index t (1 : Fin 3)) hbi p) k := by
  obtain ⟨r0a, r0b, r1a, r1b⟩ := idx_rows t
  funext ax; apply Fin.ext
  match ax with
  | ⟨0, _⟩ => show win0_0.index t (0 : Fin 2) * 512 + 1 * p.val = win0_14.index t (1 : Fin 3) * 512 + p.val; omega
  | ⟨1, _⟩ => show win0_0.index t (1 : Fin 2) * 2048 + 1 * k.val = k.val; omega

theorem emb_w1 (t : Fin cfg0.N) (hbi : win0_14.index t (1 : Fin 3) ≤ 7) (p : Fin 512) (k : Fin 2048) :
    ((cfg0.win 1).blk t).view.emb (ix2 p k) = ix2 (rowOf (win0_14.index t (1 : Fin 3)) hbi p) k := by
  obtain ⟨r0a, r0b, r1a, r1b⟩ := idx_rows t
  funext ax; apply Fin.ext
  match ax with
  | ⟨0, _⟩ => show win0_1.index t (0 : Fin 2) * 512 + 1 * p.val = win0_14.index t (1 : Fin 3) * 512 + p.val; omega
  | ⟨1, _⟩ => show win0_1.index t (1 : Fin 2) * 2048 + 1 * k.val = k.val; omega

theorem emb_w2 (t : Fin cfg0.N) (hhi : win0_14.index t (2 : Fin 3) ≤ 7) (k : Fin 2048) (r : Fin 256) :
    ((cfg0.win 2).blk t).view.emb (ix2 k r) = ix2 k (colOf (win0_14.index t (2 : Fin 3)) hhi r) := by
  obtain ⟨a2, b2, a3, b3, a4, b4, a5, b5, a6, b6, a7, b7, a8, b8, a9, b9⟩ := idx_weights t
  funext ax; apply Fin.ext
  match ax with
  | ⟨0, _⟩ => show win0_2.index t (0 : Fin 2) * 2048 + 1 * k.val = k.val; omega
  | ⟨1, _⟩ => show win0_2.index t (1 : Fin 2) * 256 + 1 * r.val = win0_14.index t (2 : Fin 3) * 256 + r.val; omega

theorem emb_w3 (t : Fin cfg0.N) (hhi : win0_14.index t (2 : Fin 3) ≤ 7) (k : Fin 2048) (r : Fin 256) :
    ((cfg0.win 3).blk t).view.emb (ix2 k r) = ix2 k (colOf (win0_14.index t (2 : Fin 3)) hhi r) := by
  obtain ⟨a2, b2, a3, b3, a4, b4, a5, b5, a6, b6, a7, b7, a8, b8, a9, b9⟩ := idx_weights t
  funext ax; apply Fin.ext
  match ax with
  | ⟨0, _⟩ => show win0_3.index t (0 : Fin 2) * 2048 + 1 * k.val = k.val; omega
  | ⟨1, _⟩ => show win0_3.index t (1 : Fin 2) * 256 + 1 * r.val = win0_14.index t (2 : Fin 3) * 256 + r.val; omega

theorem emb_w4 (t : Fin cfg0.N) (hhi : win0_14.index t (2 : Fin 3) ≤ 7) (k : Fin 2048) (r : Fin 256) :
    ((cfg0.win 4).blk t).view.emb (ix2 k r) = ix2 k (colOf (win0_14.index t (2 : Fin 3)) hhi r) := by
  obtain ⟨a2, b2, a3, b3, a4, b4, a5, b5, a6, b6, a7, b7, a8, b8, a9, b9⟩ := idx_weights t
  funext ax; apply Fin.ext
  match ax with
  | ⟨0, _⟩ => show win0_4.index t (0 : Fin 2) * 2048 + 1 * k.val = k.val; omega
  | ⟨1, _⟩ => show win0_4.index t (1 : Fin 2) * 256 + 1 * r.val = win0_14.index t (2 : Fin 3) * 256 + r.val; omega

theorem emb_w5 (t : Fin cfg0.N) (hhi : win0_14.index t (2 : Fin 3) ≤ 7) (k : Fin 2048) (r : Fin 256) :
    ((cfg0.win 5).blk t).view.emb (ix2 k r) = ix2 k (colOf (win0_14.index t (2 : Fin 3)) hhi r) := by
  obtain ⟨a2, b2, a3, b3, a4, b4, a5, b5, a6, b6, a7, b7, a8, b8, a9, b9⟩ := idx_weights t
  funext ax; apply Fin.ext
  match ax with
  | ⟨0, _⟩ => show win0_5.index t (0 : Fin 2) * 2048 + 1 * k.val = k.val; omega
  | ⟨1, _⟩ => show win0_5.index t (1 : Fin 2) * 256 + 1 * r.val = win0_14.index t (2 : Fin 3) * 256 + r.val; omega

theorem emb_w6 (t : Fin cfg0.N) (hhi : win0_14.index t (2 : Fin 3) ≤ 7) (k : Fin 2048) (r : Fin 256) :
    ((cfg0.win 6).blk t).view.emb (ix2 k r) = ix2 k (colOf (win0_14.index t (2 : Fin 3)) hhi r) := by
  obtain ⟨a2, b2, a3, b3, a4, b4, a5, b5, a6, b6, a7, b7, a8, b8, a9, b9⟩ := idx_weights t
  funext ax; apply Fin.ext
  match ax with
  | ⟨0, _⟩ => show win0_6.index t (0 : Fin 2) * 2048 + 1 * k.val = k.val; omega
  | ⟨1, _⟩ => show win0_6.index t (1 : Fin 2) * 256 + 1 * r.val = win0_14.index t (2 : Fin 3) * 256 + r.val; omega

theorem emb_w7 (t : Fin cfg0.N) (hhi : win0_14.index t (2 : Fin 3) ≤ 7) (k : Fin 2048) (r : Fin 256) :
    ((cfg0.win 7).blk t).view.emb (ix2 k r) = ix2 k (colOf (win0_14.index t (2 : Fin 3)) hhi r) := by
  obtain ⟨a2, b2, a3, b3, a4, b4, a5, b5, a6, b6, a7, b7, a8, b8, a9, b9⟩ := idx_weights t
  funext ax; apply Fin.ext
  match ax with
  | ⟨0, _⟩ => show win0_7.index t (0 : Fin 2) * 2048 + 1 * k.val = k.val; omega
  | ⟨1, _⟩ => show win0_7.index t (1 : Fin 2) * 256 + 1 * r.val = win0_14.index t (2 : Fin 3) * 256 + r.val; omega

theorem emb_w8 (t : Fin cfg0.N) (hhi : win0_14.index t (2 : Fin 3) ≤ 7) (k : Fin 2048) (r : Fin 256) :
    ((cfg0.win 8).blk t).view.emb (ix2 k r) = ix2 k (colOf (win0_14.index t (2 : Fin 3)) hhi r) := by
  obtain ⟨a2, b2, a3, b3, a4, b4, a5, b5, a6, b6, a7, b7, a8, b8, a9, b9⟩ := idx_weights t
  funext ax; apply Fin.ext
  match ax with
  | ⟨0, _⟩ => show win0_8.index t (0 : Fin 2) * 2048 + 1 * k.val = k.val; omega
  | ⟨1, _⟩ => show win0_8.index t (1 : Fin 2) * 256 + 1 * r.val = win0_14.index t (2 : Fin 3) * 256 + r.val; omega

theorem emb_w9 (t : Fin cfg0.N) (hhi : win0_14.index t (2 : Fin 3) ≤ 7) (k : Fin 2048) (r : Fin 256) :
    ((cfg0.win 9).blk t).view.emb (ix2 k r) = ix2 k (colOf (win0_14.index t (2 : Fin 3)) hhi r) := by
  obtain ⟨a2, b2, a3, b3, a4, b4, a5, b5, a6, b6, a7, b7, a8, b8, a9, b9⟩ := idx_weights t
  funext ax; apply Fin.ext
  match ax with
  | ⟨0, _⟩ => show win0_9.index t (0 : Fin 2) * 2048 + 1 * k.val = k.val; omega
  | ⟨1, _⟩ => show win0_9.index t (1 : Fin 2) * 256 + 1 * r.val = win0_14.index t (2 : Fin 3) * 256 + r.val; omega

theorem emb_w10 (t : Fin cfg0.N) (hbi : win0_14.index t (1 : Fin 3) ≤ 7) (hhi : win0_14.index t (2 : Fin 3) ≤ 7) (p : Fin 512) (r : Fin 256) :
    ((cfg0.win 10).blk t).view.emb (ix2 p r) = ix2 (rowOf (win0_14.index t (1 : Fin 3)) hbi p) (colOf (win0_14.index t (2 : Fin 3)) hhi r) := by
  obtain ⟨a10, b10, a11, b11, a12, b12⟩ := idx_states t
  funext ax; apply Fin.ext
  match ax with
  | ⟨0, _⟩ => show win0_10.index t (0 : Fin 2) * 512 + 1 * p.val = win0_14.index t (1 : Fin 3) * 512 + p.val; omega
  | ⟨1, _⟩ => show win0_10.index t (1 : Fin 2) * 256 + 1 * r.val = win0_14.index t (2 : Fin 3) * 256 + r.val; omega

theorem emb_w11 (t : Fin cfg0.N) (hbi : win0_14.index t (1 : Fin 3) ≤ 7) (hhi : win0_14.index t (2 : Fin 3) ≤ 7) (p : Fin 512) (r : Fin 256) :
    ((cfg0.win 11).blk t).view.emb (ix2 p r) = ix2 (rowOf (win0_14.index t (1 : Fin 3)) hbi p) (colOf (win0_14.index t (2 : Fin 3)) hhi r) := by
  obtain ⟨a10, b10, a11, b11, a12, b12⟩ := idx_states t
  funext ax; apply Fin.ext
  match ax with
  | ⟨0, _⟩ => show win0_11.index t (0 : Fin 2) * 512 + 1 * p.val = win0_14.index t (1 : Fin 3) * 512 + p.val; omega
  | ⟨1, _⟩ => show win0_11.index t (1 : Fin 2) * 256 + 1 * r.val = win0_14.index t (2 : Fin 3) * 256 + r.val; omega

theorem emb_w12 (t : Fin cfg0.N) (hbi : win0_14.index t (1 : Fin 3) ≤ 7) (hhi : win0_14.index t (2 : Fin 3) ≤ 7) (p : Fin 512) (r : Fin 256) :
    ((cfg0.win 12).blk t).view.emb (ix2 p r) = ix2 (rowOf (win0_14.index t (1 : Fin 3)) hbi p) (colOf (win0_14.index t (2 : Fin 3)) hhi r) := by
  obtain ⟨a10, b10, a11, b11, a12, b12⟩ := idx_states t
  funext ax; apply Fin.ext
  match ax with
  | ⟨0, _⟩ => show win0_12.index t (0 : Fin 2) * 512 + 1 * p.val = win0_14.index t (1 : Fin 3) * 512 + p.val; omega
  | ⟨1, _⟩ => show win0_12.index t (1 : Fin 2) * 256 + 1 * r.val = win0_14.index t (2 : Fin 3) * 256 + r.val; omega

theorem emb_w13 (t : Fin cfg0.N) (hhi : win0_14.index t (2 : Fin 3) ≤ 7) (g : Fin 4) (r : Fin 256) :
    ((cfg0.win 13).blk t).view.emb (ix2 g r) = ix2 g (colOf (win0_14.index t (2 : Fin 3)) hhi r) := by
  obtain ⟨a13, b13⟩ := idx_bias t
  funext ax; apply Fin.ext
  match ax with
  | ⟨0, _⟩ => show win0_13.index t (0 : Fin 2) * 4 + 1 * g.val = g.val; omega
  | ⟨1, _⟩ => show win0_13.index t (1 : Fin 2) * 256 + 1 * r.val = win0_14.index t (2 : Fin 3) * 256 + r.val; omega

theorem emb_w14 (t : Fin cfg0.N) (hbi : win0_14.index t (1 : Fin 3) ≤ 7) (hhi : win0_14.index t (2 : Fin 3) ≤ 7) (q : Fin 4) (p : Fin 512) (r : Fin 256) :
    ((cfg0.win 14).blk t).view.emb (ix3 q p r) = ix3 q (rowOf (win0_14.index t (1 : Fin 3)) hbi p) (colOf (win0_14.index t (2 : Fin 3)) hhi r) := by
  obtain ⟨a14, _, _⟩ := idx_out t
  funext ax; apply Fin.ext
  match ax with
  | ⟨0, _⟩ => show win0_14.index t (0 : Fin 3) * 4 + 1 * q.val = q.val; omega
  | ⟨1, _⟩ => show win0_14.index t (1 : Fin 3) * 512 + 1 * p.val = win0_14.index t (1 : Fin 3) * 512 + p.val; omega
  | ⟨2, _⟩ => show win0_14.index t (2 : Fin 3) * 256 + 1 * r.val = win0_14.index t (2 : Fin 3) * 256 + r.val; omega

/-! ## Each staged tile is the stated restriction of an argument array -/

/-- The tile of `x` at point `t`: rows `bi·512 + p`. -/
theorem tile_x (c : Dev nD) (t : Fin cfg0.N) (hbi : win0_14.index t (1 : Fin 3) ≤ 7) (p : Fin 512) (k : Fin 2048) :
    iblk (F := Ideal) m c 0 t (ix2 p k) = m ((c : Thread nD τ).loc main_arg0) (ix2 (rowOf (win0_14.index t (1 : Fin 3)) hbi p) k) := by
  show V (F := Ideal) m c main_v18 (((cfg0.win 0).blk t).view.emb (ix2 p k)) = _
  rw [emb_w0 t hbi p k]
  exact V_x m c _

/-- The tile of `h` at point `t`: rows `bi·512 + p`. -/
theorem tile_h (c : Dev nD) (t : Fin cfg0.N) (hbi : win0_14.index t (1 : Fin 3) ≤ 7) (p : Fin 512) (k : Fin 2048) :
    iblk (F := Ideal) m c 1 t (ix2 p k) = m ((c : Thread nD τ).loc main_arg1) (ix2 (rowOf (win0_14.index t (1 : Fin 3)) hbi p) k) := by
  show V (F := Ideal) m c main_v19 (((cfg0.win 1).blk t).view.emb (ix2 p k)) = _
  rw [emb_w1 t hbi p k]
  exact V_h m c _

/-- The tile of gate z's `x`-side weights: rows `k`, columns `0·2048 + hi·256 + r` of `W`. -/
theorem tile_wx0 (c : Dev nD) (t : Fin cfg0.N) (hhi : win0_14.index t (2 : Fin 3) ≤ 7) (k : Fin 2048) (r : Fin 256) :
    iblk (F := Ideal) m c 2 t (ix2 k r) = m ((c : Thread nD τ).loc main_arg5) (ix2 (rowX k) (col 0 (colOf (win0_14.index t (2 : Fin 3)) hhi r))) := by
  show V (F := Ideal) m c main_v10 (((cfg0.win 2).blk t).view.emb (ix2 k r)) = _
  rw [emb_w2 t hhi k r]
  exact V_wx0 m c k _

/-- The tile of gate z's `h`-side weights: rows `2048 + k`, columns `0·2048 + hi·256 + r` of `W`. -/
theorem tile_wh0 (c : Dev nD) (t : Fin cfg0.N) (hhi : win0_14.index t (2 : Fin 3) ≤ 7) (k : Fin 2048) (r : Fin 256) :
    iblk (F := Ideal) m c 6 t (ix2 k r) = m ((c : Thread nD τ).loc main_arg5) (ix2 (rowH k) (col 0 (colOf (win0_14.index t (2 : Fin 3)) hhi r))) := by
  show V (F := Ideal) m c main_v14 (((cfg0.win 6).blk t).view.emb (ix2 k r)) = _
  rw [emb_w6 t hhi k r]
  exact V_wh0 m c k _

/-- The tile of gate i's `x`-side weights: rows `k`, columns `1·2048 + hi·256 + r` of `W`. -/
theorem tile_wx1 (c : Dev nD) (t : Fin cfg0.N) (hhi : win0_14.index t (2 : Fin 3) ≤ 7) (k : Fin 2048) (r : Fin 256) :
    iblk (F := Ideal) m c 3 t (ix2 k r) = m ((c : Thread nD τ).loc main_arg5) (ix2 (rowX k) (col 1 (colOf (win0_14.index t (2 : Fin 3)) hhi r))) := by
  show V (F := Ideal) m c main_v11 (((cfg0.win 3).blk t).view.emb (ix2 k r)) = _
  rw [emb_w3 t hhi k r]
  exact V_wx1 m c k _

/-- The tile of gate i's `h`-side weights: rows `2048 + k`, columns `1·2048 + hi·256 + r` of `W`. -/
theorem tile_wh1 (c : Dev nD) (t : Fin cfg0.N) (hhi : win0_14.index t (2 : Fin 3) ≤ 7) (k : Fin 2048) (r : Fin 256) :
    iblk (F := Ideal) m c 7 t (ix2 k r) = m ((c : Thread nD τ).loc main_arg5) (ix2 (rowH k) (col 1 (colOf (win0_14.index t (2 : Fin 3)) hhi r))) := by
  show V (F := Ideal) m c main_v15 (((cfg0.win 7).blk t).view.emb (ix2 k r)) = _
  rw [emb_w7 t hhi k r]
  exact V_wh1 m c k _

/-- The tile of gate f's `x`-side weights: rows `k`, columns `2·2048 + hi·256 + r` of `W`. -/
theorem tile_wx2 (c : Dev nD) (t : Fin cfg0.N) (hhi : win0_14.index t (2 : Fin 3) ≤ 7) (k : Fin 2048) (r : Fin 256) :
    iblk (F := Ideal) m c 4 t (ix2 k r) = m ((c : Thread nD τ).loc main_arg5) (ix2 (rowX k) (col 2 (colOf (win0_14.index t (2 : Fin 3)) hhi r))) := by
  show V (F := Ideal) m c main_v12 (((cfg0.win 4).blk t).view.emb (ix2 k r)) = _
  rw [emb_w4 t hhi k r]
  exact V_wx2 m c k _

/-- The tile of gate f's `h`-side weights: rows `2048 + k`, columns `2·2048 + hi·256 + r` of `W`. -/
theorem tile_wh2 (c : Dev nD) (t : Fin cfg0.N) (hhi : win0_14.index t (2 : Fin 3) ≤ 7) (k : Fin 2048) (r : Fin 256) :
    iblk (F := Ideal) m c 8 t (ix2 k r) = m ((c : Thread nD τ).loc main_arg5) (ix2 (rowH k) (col 2 (colOf (win0_14.index t (2 : Fin 3)) hhi r))) := by
  show V (F := Ideal) m c main_v16 (((cfg0.win 8).blk t).view.emb (ix2 k r)) = _
  rw [emb_w8 t hhi k r]
  exact V_wh2 m c k _

/-- The tile of gate o's `x`-side weights: rows `k`, columns `3·2048 + hi·256 + r` of `W`. -/
theorem tile_wx3 (c : Dev nD) (t : Fin cfg0.N) (hhi : win0_14.index t (2 : Fin 3) ≤ 7) (k : Fin 2048) (r : Fin 256) :
    iblk (F := Ideal) m c 5 t (ix2 k r) = m ((c : Thread nD τ).loc main_arg5) (ix2 (rowX k) (col 3 (colOf (win0_14.index t (2 : Fin 3)) hhi r))) := by
  show V (F := Ideal) m c main_v13 (((cfg0.win 5).blk t).view.emb (ix2 k r)) = _
  rw [emb_w5 t hhi k r]
  exact V_wx3 m c k _

/-- The tile of gate o's `h`-side weights: rows `2048 + k`, columns `3·2048 + hi·256 + r` of `W`. -/
theorem tile_wh3 (c : Dev nD) (t : Fin cfg0.N) (hhi : win0_14.index t (2 : Fin 3) ≤ 7) (k : Fin 2048) (r : Fin 256) :
    iblk (F := Ideal) m c 9 t (ix2 k r) = m ((c : Thread nD τ).loc main_arg5) (ix2 (rowH k) (col 3 (colOf (win0_14.index t (2 : Fin 3)) hhi r))) := by
  show V (F := Ideal) m c main_v17 (((cfg0.win 9).blk t).view.emb (ix2 k r)) = _
  rw [emb_w9 t hhi k r]
  exact V_wh3 m c k _

/-- The tile of `c` at point `t`. -/
theorem tile_c (c : Dev nD) (t : Fin cfg0.N) (hbi : win0_14.index t (1 : Fin 3) ≤ 7) (hhi : win0_14.index t (2 : Fin 3) ≤ 7) (p : Fin 512) (r : Fin 256) :
    iblk (F := Ideal) m c 10 t (ix2 p r) = m ((c : Thread nD τ).loc main_arg2) (ix2 (rowOf (win0_14.index t (1 : Fin 3)) hbi p) (colOf (win0_14.index t (2 : Fin 3)) hhi r)) := by
  show V (F := Ideal) m c main_arg2 (((cfg0.win 10).blk t).view.emb (ix2 p r)) = _
  rw [emb_w10 t hbi hhi p r, V_main_arg2]

/-- The tile of `n` at point `t`. -/
theorem tile_n (c : Dev nD) (t : Fin cfg0.N) (hbi : win0_14.index t (1 : Fin 3) ≤ 7) (hhi : win0_14.index t (2 : Fin 3) ≤ 7) (p : Fin 512) (r : Fin 256) :
    iblk (F := Ideal) m c 11 t (ix2 p r) = m ((c : Thread nD τ).loc main_arg3) (ix2 (rowOf (win0_14.index t (1 : Fin 3)) hbi p) (colOf (win0_14.index t (2 : Fin 3)) hhi r)) := by
  show V (F := Ideal) m c main_arg3 (((cfg0.win 11).blk t).view.emb (ix2 p r)) = _
  rw [emb_w11 t hbi hhi p r, V_main_arg3]

/-- The tile of `m` at point `t`. -/
theorem tile_m (c : Dev nD) (t : Fin cfg0.N) (hbi : win0_14.index t (1 : Fin 3) ≤ 7) (hhi : win0_14.index t (2 : Fin 3) ≤ 7) (p : Fin 512) (r : Fin 256) :
    iblk (F := Ideal) m c 12 t (ix2 p r) = m ((c : Thread nD τ).loc main_arg4) (ix2 (rowOf (win0_14.index t (1 : Fin 3)) hbi p) (colOf (win0_14.index t (2 : Fin 3)) hhi r)) := by
  show V (F := Ideal) m c main_arg4 (((cfg0.win 12).blk t).view.emb (ix2 p r)) = _
  rw [emb_w12 t hbi hhi p r, V_main_arg4]

/-- The tile of the bias at point `t`: entries `g·2048 + hi·256 + r`. -/
theorem tile_bias (c : Dev nD) (t : Fin cfg0.N) (hhi : win0_14.index t (2 : Fin 3) ≤ 7) (g : Fin 4) (r : Fin 256) :
    iblk (F := Ideal) m c 13 t (ix2 g r) = m ((c : Thread nD τ).loc main_arg6) (ix1 (col g (colOf (win0_14.index t (2 : Fin 3)) hhi r))) := by
  show V (F := Ideal) m c main_v20 (((cfg0.win 13).blk t).view.emb (ix2 g r)) = _
  rw [emb_w13 t hhi g r]
  exact V_bias m c g _

/-! ## What a point writes back -/

/-- Point `t` writes back its tile of `G` of the argument arrays. -/
theorem flushed14_eq (c : Dev nD) (t : Fin cfg0.N) :
    (dats (F := Ideal) m 0 c).flushed 14 t = ((cfg0.win 14).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  obtain ⟨_, hbi, hhi⟩ := idx_out t
  rw [Value.flushed14]
  funext y
  show out0_14 (F := Ideal) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) y
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 14).blk t).view.emb y)
  obtain ⟨q, p, r, rfl⟩ : ∃ (q : Fin 4) (p : Fin 512) (r : Fin 256), y = ix3 q p r := ⟨y 0, y 1, y 2, eq_ix3 y⟩
  rw [emb_w14 t hbi hhi q p r]
  refine (congrFun (out0_14_eq (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t)) (ix3 q p r)).trans ?_
  exact tileCell_eq_G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (win0_14.index t (1 : Fin 3)) (win0_14.index t (2 : Fin 3)) hbi hhi (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t)
    (tile_x m c t hbi) (tile_h m c t hbi)
    (tile_wx0 m c t hhi) (tile_wx1 m c t hhi) (tile_wx2 m c t hhi) (tile_wx3 m c t hhi)
    (tile_wh0 m c t hhi) (tile_wh1 m c t hhi) (tile_wh2 m c t hhi) (tile_wh3 m c t hhi)
    (tile_c m c t hbi hhi) (tile_n m c t hbi hhi) (tile_m m c t hbi hhi) (tile_bias m c t hhi)
    q p r

/-! ## The tiles cover the array -/

/-- An index of the result array is in point `t`'s tile iff each coordinate is in the tile's range on its axis. -/
theorem mem_blk14 (t : Fin cfg0.N) (i : S4x4096x2048.Idx) :
    i ∈ ((cfg0.win 14).blk t).view.set ↔ ∀ a : Fin 3, win0_14.index t a * S4x512x256.size a ≤ (i a).val ∧ (i a).val < win0_14.index t a * S4x512x256.size a + S4x512x256.size a := by
  show i ∈ ((View.whole main_v21).slice (win0_14.rect t)).set ↔ _
  rw [View.set_slice_whole, Rect.mem_set_unit]
  exact Iff.rfl

/-- Every index of the result array is in some point's tile. -/
theorem cover14 (i : S4x4096x2048.Idx) :
    ∃ t : Fin cfg0.N, (cfg0.win 14).flush t = true ∧ i ∈ ((cfg0.win 14).blk t).view.set := by
  have hi0 : (i 0).val < 4 := (i 0).isLt
  have hi1 : (i 1).val < 4096 := (i 1).isLt
  have hi2 : (i 2).val < 2048 := (i 2).isLt
  obtain ⟨t, ht⟩ := idx_onto ⟨(i 1).val / 512, by omega⟩ ⟨(i 2).val / 256, by omega⟩
  have q0 : win0_14.index t (0 : Fin 3) = 0 := congrFun ht 0
  have q1 : win0_14.index t (1 : Fin 3) = (i 1).val / 512 := congrFun ht 1
  have q2 : win0_14.index t (2 : Fin 3) = (i 2).val / 256 := congrFun ht 2
  refine ⟨t, flush0_14 t, ?_⟩
  rw [mem_blk14]
  intro a
  match a with
  | ⟨0, _⟩ => show win0_14.index t (0 : Fin 3) * 4 ≤ (i 0).val ∧ (i 0).val < win0_14.index t (0 : Fin 3) * 4 + 4; omega
  | ⟨1, _⟩ => show win0_14.index t (1 : Fin 3) * 512 ≤ (i 1).val ∧ (i 1).val < win0_14.index t (1 : Fin 3) * 512 + 512; omega
  | ⟨2, _⟩ => show win0_14.index t (2 : Fin 3) * 256 ≤ (i 2).val ∧ (i 2).val < win0_14.index t (2 : Fin 3) * 256 + 256; omega

/-- The result array after the run is `G` of the argument arrays. -/
theorem final14 (c : Dev nD) :
    (dats (F := Ideal) m 0 c).arrAt 14 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats (F := Ideal) m 0 c).arrAt_eq_of_cover 14 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (fun t _ => flushed14_eq m c t) cover14

/-! ## The run -/

/-- Every weakly fair execution of the idealized kernel terminates with the result array at `G` of the argument arrays and
    the arguments unchanged. -/
theorem run : θ_run (defs (F := Ideal)) (onTc (τ := τ) (main (F := Ideal))) ⟨m, fun _ => 0, ρ⟩ fun r => ∀ c : Dev nD,
      r.2.mem ((c : Thread nD τ).loc main_v21) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final14 m c), (h c).2⟩) (Value.run_blocks m ρ)

end Cert.KernelIdeal.Blocks

end
-- ==== Proof.RefRun.lean ====
/-
  The reference program's @main as ONE straight line of host operations, and its run.

  @main calls the logarithm of the logistic function, which calls softplus; both callees are straight lines of host
  operations over the buffers the call names, so unfolding the two bodies at the call site gives one list of 58
  operations: the 26 before the call, the 16 of the two callees (a negation, softplus's 14, a negation), the 16 after.
  Every weakly fair execution of @main then terminates with each buffer at the fold of that list over the launch contents.
-/
import proofs.«116610_j747324309576_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 58 operations in order, the two callees' operations inline at the call site over the call's buffers. -/
abbrev ops : List (HloOp τ sig (Elt F)) :=
  [ StableHlo.binary main_arg0 main_arg1 main_v0 ((fun a b => concatenate S4096x4096 1 [⟨S4096x2048, a⟩, ⟨S4096x2048, b⟩] concatenates_S4096x2048_S4096x2048_S4096x4096_d1) : (⟨S4096x2048, .f32⟩ : BufTy).Contents (Elt F) → (⟨S4096x2048, .f32⟩ : BufTy).Contents (Elt F) → (⟨S4096x4096, .f32⟩ : BufTy).Contents (Elt F)),
    StableHlo.binary main_v0 main_arg5 main_v1 ((fun l r => Host.dotGeneral dot_S4096x4096_S4096x8192_S4096x8192_1_0_0_1_n_n none l r) : (⟨S4096x4096, .f32⟩ : BufTy).Contents (Elt F) → (⟨S4096x8192, .f32⟩ : BufTy).Contents (Elt F) → (⟨S4096x8192, .f32⟩ : BufTy).Contents (Elt F)),
    StableHlo.unary main_arg6 main_v2 (broadcastInDim S1x8192 ![1] bcast_S8192_S1x8192_1 : (⟨S8192, .f32⟩ : BufTy).Contents (Elt F) → (⟨S1x8192, .f32⟩ : BufTy).Contents (Elt F)),
    StableHlo.unary main_v2 main_v3 (broadcastInDim S4096x8192 ![0, 1] bcast_S1x8192_S4096x8192_0_1 : (⟨S1x8192, .f32⟩ : BufTy).Contents (Elt F) → (⟨S4096x8192, .f32⟩ : BufTy).Contents (Elt F)),
    StableHlo.binary main_v1 main_v3 main_v4 (addf : (⟨S4096x8192, .f32⟩ : BufTy).Contents (Elt F) → (⟨S4096x8192, .f32⟩ : BufTy).Contents (Elt F) → (⟨S4096x8192, .f32⟩ : BufTy).Contents (Elt F)),
    StableHlo.unary main_v4 main_v5 ((extractStridedSlice S4096x2048 ![0, 0] · slices_S4096x8192_S4096x2048_0_0) : (⟨S4096x8192, .f32⟩ : BufTy).Contents (Elt F) → (⟨S4096x2048, .f32⟩ : BufTy).Contents (Elt F)),
    StableHlo.unary main_v4 main_v6 ((extractStridedSlice S4096x2048 ![0, 2048] · slices_S4096x8192_S4096x2048_0_2048) : (⟨S4096x8192, .f32⟩ : BufTy).Contents (Elt F) → (⟨S4096x2048, .f32⟩ : BufTy).Contents (Elt F)),
    StableHlo.unary main_v4 main_v7 ((extractStridedSlice S4096x2048 ![0, 4096] · slices_S4096x8192_S4096x2048_0_4096) : (⟨S4096x8192, .f32⟩ : BufTy).Contents (Elt F) → (⟨S4096x2048, .f32⟩ : BufTy).Contents (Elt F)),
    StableHlo.unary main_v4 main_v8 ((extractStridedSlice S4096x2048 ![0, 6144] · slices_S4096x8192_S4096x2048_0_6144) : (⟨S4096x8192, .f32⟩ : BufTy).Contents (Elt F) → (⟨S4096x2048, .f32⟩ : BufTy).Contents (Elt F)),
    StableHlo.unary main_v5 main_v9 (Host.tanh : (⟨S4096x2048, .f32⟩ : BufTy).Contents (Elt F) → (⟨S4096x2048, .f32⟩ : BufTy).Contents (Elt F)),
    StableHlo.unary main_v7 main_v10 (Host.negf : (⟨S4096x2048, .f32⟩ : BufTy).Contents (Elt F) → (⟨S4096x2048, .f32⟩ : BufTy).Contents (Elt F)),
    StableHlo.unary main_v10 main_v11 (Host.exp : (⟨S4096x2048, .f32⟩ : BufTy).Contents (Elt F) → (⟨S4096x2048, .f32⟩ : BufTy).Contents (Elt F)),
    StableHlo.nullary main_cst (constant S_ .f32 0x3F800000#32),
    StableHlo.unary main_cst main_v12 (broadcastInDim S4096x2048 ![] bcast_S_S4096x2048 : (⟨S_, .f32⟩ : BufTy).Contents (Elt F) → (⟨S4096x2048, .f32⟩ : BufTy).Contents (Elt F)),
    StableHlo.binary main_v12 main_v11 main_v13 (addf : (⟨S4096x2048, .f32⟩ : BufTy).Contents (Elt F) → (⟨S4096x2048, .f32⟩ : BufTy).Contents (Elt F) → (⟨S4096x2048, .f32⟩ : BufTy).Contents (Elt F)),
    StableHlo.nullary main_cst_0 (constant S_ .f32 0x3F800000#32),
    StableHlo.unary main_cst_0 main_v14 (broadcastInDim S4096x2048 ![] bcast_S_S4096x2048 : (⟨S_, .f32⟩ : BufTy).Contents (Elt F) → (⟨S4096x2048, .f32⟩ : BufTy).Contents (Elt F)),
    StableHlo.binary main_v14 main_v13 main_v15 (Host.divf : (⟨S4096x2048, .f32⟩ : BufTy).Contents (Elt F) → (⟨S4096x2048, .f32⟩ : BufTy).Contents (Elt F) → (⟨S4096x2048, .f32⟩ : BufTy).Contents (Elt F)),
    StableHlo.unary main_v8 main_v16 (Host.negf : (⟨S4096x2048, .f32⟩ : BufTy).Contents (Elt F) → (⟨S4096x2048, .f32⟩ : BufTy).Contents (Elt F)),
    StableHlo.unary main_v16 main_v17 (Host.exp : (⟨S4096x2048, .f32⟩ : BufTy).Contents (Elt F) → (⟨S4096x2048, .f32⟩ : BufTy).Contents (Elt F)),
    StableHlo.nullary main_cst_1 (constant S_ .f32 0x3F800000#32),
    StableHlo.unary main_cst_1 main_v18 (broadcastInDim S4096x2048 ![] bcast_S_S4096x2048 : (⟨S_, .f32⟩ : BufTy).Contents (Elt F) → (⟨S4096x2048, .f32⟩ : BufTy).Contents (Elt F)),
    StableHlo.binary main_v18 main_v17 main_v19 (addf : (⟨S4096x2048, .f32⟩ : BufTy).Contents (Elt F) → (⟨S4096x2048, .f32⟩ : BufTy).Contents (Elt F) → (⟨S4096x2048, .f32⟩ : BufTy).Contents (Elt F)),
    StableHlo.nullary main_cst_2 (constant S_ .f32 0x3F800000#32),
    StableHlo.unary main_cst_2 main_v20 (broadcastInDim S4096x2048 ![] bcast_S_S4096x2048 : (⟨S_, .f32⟩ : BufTy).Contents (Elt F) → (⟨S4096x2048, .f32⟩ : BufTy).Contents (Elt F)),
    StableHlo.binary main_v20 main_v19 main_v21 (Host.divf : (⟨S4096x2048, .f32⟩ : BufTy).Contents (Elt F) → (⟨S4096x2048, .f32⟩ : BufTy).Contents (Elt F) → (⟨S4096x2048, .f32⟩ : BufTy).Contents (Elt F)),
    StableHlo.TRef.unary (StableHlo.TRef.of main_v7 : StableHlo.TRef sig ⟨S4096x2048, .f32⟩) main_call0.v0 Host.negf,
    StableHlo.TRef.nullary main_call0.call0.cst (constant S_ .f32 0x00000000#32),
    StableHlo.TRef.unary main_call0.call0.cst main_call0.call0.v0 (broadcastInDim S4096x2048 ![] bcast_S_S4096x2048),
    StableHlo.TRef.binary main_call0.v0 main_call0.call0.v0 main_call0.call0.v1 maximumf,
    StableHlo.TRef.unary main_call0.call0.cst main_call0.call0.v2 (broadcastInDim S4096x2048 ![] bcast_S_S4096x2048),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S4096x2048 ![] bcast_S_S4096x2048),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.binary main_v22 main_arg4 main_v23 (addf : (⟨S4096x2048, .f32⟩ : BufTy).Contents (Elt F) → (⟨S4096x2048, .f32⟩ : BufTy).Contents (Elt F) → (⟨S4096x2048, .f32⟩ : BufTy).Contents (Elt F)),
    StableHlo.binary main_v23 main_v6 main_v24 (maximumf : (⟨S4096x2048, .f32⟩ : BufTy).Contents (Elt F) → (⟨S4096x2048, .f32⟩ : BufTy).Contents (Elt F) → (⟨S4096x2048, .f32⟩ : BufTy).Contents (Elt F)),
    StableHlo.binary main_v6 main_v24 main_v25 (subf : (⟨S4096x2048, .f32⟩ : BufTy).Contents (Elt F) → (⟨S4096x2048, .f32⟩ : BufTy).Contents (Elt F) → (⟨S4096x2048, .f32⟩ : BufTy).Contents (Elt F)),
    StableHlo.unary main_v25 main_v26 (Host.exp : (⟨S4096x2048, .f32⟩ : BufTy).Contents (Elt F) → (⟨S4096x2048, .f32⟩ : BufTy).Contents (Elt F)),
    StableHlo.binary main_v15 main_arg2 main_v27 (mulf : (⟨S4096x2048, .f32⟩ : BufTy).Contents (Elt F) → (⟨S4096x2048, .f32⟩ : BufTy).Contents (Elt F) → (⟨S4096x2048, .f32⟩ : BufTy).Contents (Elt F)),
    StableHlo.binary main_v26 main_v9 main_v28 (mulf : (⟨S4096x2048, .f32⟩ : BufTy).Contents (Elt F) → (⟨S4096x2048, .f32⟩ : BufTy).Contents (Elt F) → (⟨S4096x2048, .f32⟩ : BufTy).Contents (Elt F)),
    StableHlo.binary main_v27 main_v28 main_v29 (addf : (⟨S4096x2048, .f32⟩ : BufTy).Contents (Elt F) → (⟨S4096x2048, .f32⟩ : BufTy).Contents (Elt F) → (⟨S4096x2048, .f32⟩ : BufTy).Contents (Elt F)),
    StableHlo.binary main_v15 main_arg3 main_v30 (mulf : (⟨S4096x2048, .f32⟩ : BufTy).Contents (Elt F) → (⟨S4096x2048, .f32⟩ : BufTy).Contents (Elt F) → (⟨S4096x2048, .f32⟩ : BufTy).Contents (Elt F)),
    StableHlo.binary main_v30 main_v26 main_v31 (addf : (⟨S4096x2048, .f32⟩ : BufTy).Contents (Elt F) → (⟨S4096x2048, .f32⟩ : BufTy).Contents (Elt F) → (⟨S4096x2048, .f32⟩ : BufTy).Contents (Elt F)),
    StableHlo.binary main_v29 main_v31 main_v32 (Host.divf : (⟨S4096x2048, .f32⟩ : BufTy).Contents (Elt F) → (⟨S4096x2048, .f32⟩ : BufTy).Contents (Elt F) → (⟨S4096x2048, .f32⟩ : BufTy).Contents (Elt F)),
    StableHlo.binary main_v21 main_v32 main_v33 (mulf : (⟨S4096x2048, .f32⟩ : BufTy).Contents (Elt F) → (⟨S4096x2048, .f32⟩ : BufTy).Contents (Elt F) → (⟨S4096x2048, .f32⟩ : BufTy).Contents (Elt F)),
    StableHlo.unary main_v33 main_v34 (broadcastInDim S1x4096x2048 ![1, 2] bcast_S4096x2048_S1x4096x2048_1_2 : (⟨S4096x2048, .f32⟩ : BufTy).Contents (Elt F) → (⟨S1x4096x2048, .f32⟩ : BufTy).Contents (Elt F)),
    StableHlo.unary main_v29 main_v35 (broadcastInDim S1x4096x2048 ![1, 2] bcast_S4096x2048_S1x4096x2048_1_2 : (⟨S4096x2048, .f32⟩ : BufTy).Contents (Elt F) → (⟨S1x4096x2048, .f32⟩ : BufTy).Contents (Elt F)),
    StableHlo.unary main_v31 main_v36 (broadcastInDim S1x4096x2048 ![1, 2] bcast_S4096x2048_S1x4096x2048_1_2 : (⟨S4096x2048, .f32⟩ : BufTy).Contents (Elt F) → (⟨S1x4096x2048, .f32⟩ : BufTy).Contents (Elt F)),
    StableHlo.unary main_v24 main_v37 (broadcastInDim S1x4096x2048 ![1, 2] bcast_S4096x2048_S1x4096x2048_1_2 : (⟨S4096x2048, .f32⟩ : BufTy).Contents (Elt F) → (⟨S1x4096x2048, .f32⟩ : BufTy).Contents (Elt F)),
    StableHlo.nary ![main_v34, main_v35, main_v36, main_v37] main_v38 (fun u => concatenate S4x4096x2048 0 [⟨S1x4096x2048, u 0⟩, ⟨S1x4096x2048, u 1⟩, ⟨S1x4096x2048, u 2⟩, ⟨S1x4096x2048, u 3⟩] concatenates_S1x4096x2048_S1x4096x2048_S1x4096x2048_S1x4096x2048_S4x4096x2048_d0) ]

-- fifty-eight binds re-associated: the rewrite under the chain recurses once per statement
set_option maxRecDepth 2048 in
/-- @main is that straight line: the callees' definitions unfolded at their calls, both sides are one chain of
    steps once sequencing is re-associated. -/
theorem main_eq (c : Dev nD) : main (F := F) c = seq ops := by
  simp only [main, fn_log_sigmoid.body, fn_softplus.body, seq, bind_assoc, pure_bind] <;> rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., unary_bufs_sub .., unary_bufs_sub .., binary_bufs_sub .., unary_bufs_sub ..,
    unary_bufs_sub .., unary_bufs_sub .., unary_bufs_sub .., unary_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    binary_bufs_sub .., binary_bufs_sub .., binary_bufs_sub .., unary_bufs_sub .., binary_bufs_sub .., binary_bufs_sub ..,
    binary_bufs_sub .., binary_bufs_sub .., binary_bufs_sub .., binary_bufs_sub .., binary_bufs_sub .., unary_bufs_sub ..,
    unary_bufs_sub .., unary_bufs_sub .., unary_bufs_sub .., nary_bufs_sub ..⟩

/-- At the compiled mesh, for any float values, from any memory with zero counters: every weakly fair execution of
    @main terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  What the reference program computes from the seven argument arrays, as ONE pure term, for any float values.

  With x, h side by side (`cat`, [4096, 4096]) the four gates' pre-activations are one contraction with the weights
  plus the bias spread over the rows (`pre`, [4096, 8192]); its four column blocks of width 2048 are z, i, f, o.
  From them and the states c, n, m, elementwise:
      σ a = 1 / (1 + exp (−a)),   softplus a = select (a − 0 ≠ a − 0) (a + 0) (max a 0 + log1p (exp (−|a − 0|))),
      logσ a = −softplus (−a),    m' = max (logσ f + m) i,    i' = exp (i − m'),
      c' = σ f · c + i' · tanh z,   n' = σ f · n + i',   h' = σ o · (c' / n').
  The result stacks h', c', n', m', each given a leading axis of extent one, along that axis.
-/
import proofs.«116610_j747324309576_2_alg».proof.Proof.Gen.ReferenceIdeal

noncomputable section

namespace Cert.ReferenceIdeal.RefValue

open Cert.ReferenceIdeal Cert.ReferenceIdeal.Gen Idealize.ShloMosaic

variable {F : FTy → Type} [FloatOps F]

/-- x and h side by side. -/
def cat (x h : FVec F S4096x2048 .f32) : FVec F S4096x4096 .f32 :=
  concatenate S4096x4096 1 [⟨S4096x2048, x⟩, ⟨S4096x2048, h⟩] concatenates_S4096x2048_S4096x2048_S4096x4096_d1

/-- The bias spread over the rows. -/
def biasRows (B : FVec F S8192 .f32) : FVec F S4096x8192 .f32 :=
  broadcastInDim S4096x8192 ![0, 1] bcast_S1x8192_S4096x8192_0_1 (broadcastInDim S1x8192 ![1] bcast_S8192_S1x8192_1 B)

/-- The four gates' pre-activations, side by side. -/
def pre (x h : FVec F S4096x2048 .f32) (W : FVec F S4096x8192 .f32) (B : FVec F S8192 .f32) : FVec F S4096x8192 .f32 :=
  addf (Host.dotGeneral dot_S4096x4096_S4096x8192_S4096x8192_1_0_0_1_n_n none (cat x h) W) (biasRows B)

/-- The four column blocks of width 2048. -/
def blk0 (P : FVec F S4096x8192 .f32) : FVec F S4096x2048 .f32 :=
  extractStridedSlice S4096x2048 ![0, 0] P slices_S4096x8192_S4096x2048_0_0
def blk1 (P : FVec F S4096x8192 .f32) : FVec F S4096x2048 .f32 :=
  extractStridedSlice S4096x2048 ![0, 2048] P slices_S4096x8192_S4096x2048_0_2048
def blk2 (P : FVec F S4096x8192 .f32) : FVec F S4096x2048 .f32 :=
  extractStridedSlice S4096x2048 ![0, 4096] P slices_S4096x8192_S4096x2048_0_4096
def blk3 (P : FVec F S4096x8192 .f32) : FVec F S4096x2048 .f32 :=
  extractStridedSlice S4096x2048 ![0, 6144] P slices_S4096x8192_S4096x2048_0_6144

/-- The array of ones and the array of zeros. -/
def ones : FVec F S4096x2048 .f32 := broadcastInDim S4096x2048 ![] bcast_S_S4096x2048 (constant S_ .f32 0x3F800000#32)
def zeros : FVec F S4096x2048 .f32 := broadcastInDim S4096x2048 ![] bcast_S_S4096x2048 (constant S_ .f32 0x00000000#32)

/-- σ a = 1 / (1 + exp (−a)). -/
def sigV (a : FVec F S4096x2048 .f32) : FVec F S4096x2048 .f32 :=
  Host.divf ones (addf ones (Host.exp (Host.negf a)))

/-- softplus as the reference spells it. -/
def softplusV (a : FVec F S4096x2048 .f32) : FVec F S4096x2048 .f32 :=
  select (cmpf .une (subf a zeros) (subf a zeros)) (addf a zeros)
    (addf (maximumf a zeros) (Host.log1p (Host.exp (Host.negf (Host.absf (subf a zeros))))))

/-- logσ a = −softplus (−a). -/
def logSigV (a : FVec F S4096x2048 .f32) : FVec F S4096x2048 .f32 := Host.negf (softplusV (Host.negf a))

/-- m' = max (logσ f + m) i. -/
def mV (i f m : FVec F S4096x2048 .f32) : FVec F S4096x2048 .f32 := maximumf (addf (logSigV f) m) i
/-- i' = exp (i − m'). -/
def iV (i f m : FVec F S4096x2048 .f32) : FVec F S4096x2048 .f32 := Host.exp (subf i (mV i f m))
/-- c' = σ f · c + i' · tanh z. -/
def cV (z i f c m : FVec F S4096x2048 .f32) : FVec F S4096x2048 .f32 :=
  addf (mulf (sigV f) c) (mulf (iV i f m) (Host.tanh z))
/-- n' = σ f · n + i'. -/
def nV (i f n m : FVec F S4096x2048 .f32) : FVec F S4096x2048 .f32 := addf (mulf (sigV f) n) (iV i f m)
/-- h' = σ o · (c' / n'). -/
def hV (z i f o c n m : FVec F S4096x2048 .f32) : FVec F S4096x2048 .f32 :=
  mulf (sigV o) (Host.divf (cV z i f c m) (nV i f n m))

/-- An array given a leading axis of extent one. -/
def lift (a : FVec F S4096x2048 .f32) : FVec F S1x4096x2048 .f32 :=
  broadcastInDim S1x4096x2048 ![1, 2] bcast_S4096x2048_S1x4096x2048_1_2 a

/-- Four arrays stacked along a new leading axis. -/
def stack (p0 p1 p2 p3 : FVec F S4096x2048 .f32) : FVec F S4x4096x2048 .f32 :=
  concatenate S4x4096x2048 0 [⟨S1x4096x2048, lift p0⟩, ⟨S1x4096x2048, lift p1⟩, ⟨S1x4096x2048, lift p2⟩, ⟨S1x4096x2048, lift p3⟩]
    concatenates_S1x4096x2048_S1x4096x2048_S1x4096x2048_S1x4096x2048_S4x4096x2048_d0

/-- The step's four results from the pre-activations `P` and the states. -/
def outOf (P : FVec F S4096x8192 .f32) (c n m : FVec F S4096x2048 .f32) : FVec F S4x4096x2048 .f32 :=
  stack (hV (blk0 P) (blk1 P) (blk2 P) (blk3 P) c n m) (cV (blk0 P) (blk1 P) (blk2 P) c m) (nV (blk1 P) (blk2 P) n m)
    (mV (blk1 P) (blk2 P) m)

/-- The whole result as a function of the seven arguments. -/
def out (x h c n m : FVec F S4096x2048 .f32) (W : FVec F S4096x8192 .f32) (B : FVec F S8192 .f32) : FVec F S4x4096x2048 .f32 :=
  outOf (pre x h W B) c n m

end Cert.ReferenceIdeal.RefValue

end
-- ==== Proof.RefOut.lean ====
/-
  The fold of the reference's 58 operations read at the result buffer is the composed pure term `out` of the seven
  arguments' contents, and at each argument buffer it is what was there: no operation writes an argument.
-/
import proofs.«116610_j747324309576_2_alg».proof.Proof.RefRun
import proofs.«116610_j747324309576_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

set_option maxRecDepth 16384 in
set_option maxHeartbeats 1600000 in
/-- The fold at the result buffer: each operation's result at its own buffer is its function's value and at any other
    buffer what was there; what is left is the composed term, its definitions unfolded. -/
theorem out_eq (V : Valuation τ sig (Elt F)) :
    after ops V (main_v38 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

set_option maxRecDepth 16384 in
set_option maxHeartbeats 1600000 in
theorem arg0_eq (V : Valuation τ sig (Elt F)) :
    after ops V (main_arg0 : DevRef τ sig) = V (main_arg0 : DevRef τ sig) := by
  after_results_simp

set_option maxRecDepth 16384 in
set_option maxHeartbeats 1600000 in
theorem arg1_eq (V : Valuation τ sig (Elt F)) :
    after ops V (main_arg1 : DevRef τ sig) = V (main_arg1 : DevRef τ sig) := by
  after_results_simp

set_option maxRecDepth 16384 in
set_option maxHeartbeats 1600000 in
theorem arg2_eq (V : Valuation τ sig (Elt F)) :
    after ops V (main_arg2 : DevRef τ sig) = V (main_arg2 : DevRef τ sig) := by
  after_results_simp

set_option maxRecDepth 16384 in
set_option maxHeartbeats 1600000 in
theorem arg3_eq (V : Valuation τ sig (Elt F)) :
    after ops V (main_arg3 : DevRef τ sig) = V (main_arg3 : DevRef τ sig) := by
  after_results_simp

set_option maxRecDepth 16384 in
set_option maxHeartbeats 1600000 in
theorem arg4_eq (V : Valuation τ sig (Elt F)) :
    after ops V (main_arg4 : DevRef τ sig) = V (main_arg4 : DevRef τ sig) := by
  after_results_simp

set_option maxRecDepth 16384 in
set_option maxHeartbeats 1600000 in
theorem arg5_eq (V : Valuation τ sig (Elt F)) :
    after ops V (main_arg5 : DevRef τ sig) = V (main_arg5 : DevRef τ sig) := by
  after_results_simp

set_option maxRecDepth 16384 in
set_option maxHeartbeats 1600000 in
theorem arg6_eq (V : Valuation τ sig (Elt F)) :
    after ops V (main_arg6 : DevRef τ sig) = V (main_arg6 : DevRef τ sig) := by
  after_results_simp

end Cert.ReferenceIdeal.RefValue

end
-- ==== Proof.RefStages.lean ====
/-
  The reference's composed term read at ONE index, at the extended reals: it is the cell specification `Cert.SLstm.G`.

  Layout: the stack of four planes read at (q, b, j) is plane q at (b, j); a column block of the pre-activations read at
  (b, j) is the pre-activation at column g·2048 + j; the pre-activation at (b, col) is the contraction over all 4096
  rows of the weights plus the bias at col; x and h side by side read at column k is x for k in the lower half and h
  for k in the upper half, so the single contraction is the specification's two sums (`sum_halves`).
  Elementwise: the reference's spelling of σ is the logistic function by definition, and its softplus takes the second
  branch of its select, because "a − 0 ≠ a − 0" never holds.
-/
import proofs.«116610_j747324309576_2_alg».proof.Proof.RefTerm
import proofs.«116610_j747324309576_2_alg».proof.Proof.CellSpec
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## The contraction read at an index -/

theorem lhs_0 (i : S4096x8192.Idx) (q : dot_S4096x4096_S4096x8192_S4096x8192_1_0_0_1_n_n.contr.Idx) :
    (dot_S4096x4096_S4096x8192_S4096x8192_1_0_0_1_n_n.lhsIdx i q 0).val = (i 0).val := by
  unfold DotDims.lhsIdx
  rw [dif_neg (show ¬(0 : Fin S4096x4096.rank) ∈ dot_S4096x4096_S4096x8192_S4096x8192_1_0_0_1_n_n.lhsBatch by decide),
    dif_pos (show (0 : Fin S4096x4096.rank) ∈ dot_S4096x4096_S4096x8192_S4096x8192_1_0_0_1_n_n.lhsNonContracting by decide)]
  rfl

theorem lhs_1 (i : S4096x8192.Idx) (q : dot_S4096x4096_S4096x8192_S4096x8192_1_0_0_1_n_n.contr.Idx) :
    (dot_S4096x4096_S4096x8192_S4096x8192_1_0_0_1_n_n.lhsIdx i q 1).val = (q ⟨0, by decide⟩).val :=
  dot_S4096x4096_S4096x8192_S4096x8192_1_0_0_1_n_n.lhsIdx_val_of_single rfl i q

theorem rhs_0 (i : S4096x8192.Idx) (q : dot_S4096x4096_S4096x8192_S4096x8192_1_0_0_1_n_n.contr.Idx) :
    (dot_S4096x4096_S4096x8192_S4096x8192_1_0_0_1_n_n.rhsIdx i q 0).val = (q ⟨0, by decide⟩).val :=
  dot_S4096x4096_S4096x8192_S4096x8192_1_0_0_1_n_n.rhsIdx_val_of_single rfl i q

theorem rhs_1 (i : S4096x8192.Idx) (q : dot_S4096x4096_S4096x8192_S4096x8192_1_0_0_1_n_n.contr.Idx) :
    (dot_S4096x4096_S4096x8192_S4096x8192_1_0_0_1_n_n.rhsIdx i q 1).val = (i 1).val := by
  unfold DotDims.rhsIdx
  rw [dif_neg (show ¬(1 : Fin S4096x8192.rank) ∈ dot_S4096x4096_S4096x8192_S4096x8192_1_0_0_1_n_n.rhsBatch by decide),
    dif_pos (show (1 : Fin S4096x8192.rank) ∈ dot_S4096x4096_S4096x8192_S4096x8192_1_0_0_1_n_n.rhsNonContracting by decide)]
  rfl

/-- The product at (b, c) is the sum over the 4096 rows of the right operand. -/
theorem dot_apply (A : FVec Ideal S4096x4096 .f32) (W : FVec Ideal S4096x8192 .f32) (b : Fin 4096) (c : Fin 8192) :
    Host.dotGeneral dot_S4096x4096_S4096x8192_S4096x8192_1_0_0_1_n_n none A W (ix2 b c) = ∑ k : Fin 4096, A (ix2 b k) * W (ix2 k c) := by
  simp only [Host.dotGeneral]
  rw [Ideal.dotGeneral_apply, ← Equiv.sum_comp (contrEquiv1 dot_S4096x4096_S4096x8192_S4096x8192_1_0_0_1_n_n 4096 rfl rfl).symm]
  refine Finset.sum_congr rfl fun k _ => ?_
  have hk := contrEquiv1_symm_val dot_S4096x4096_S4096x8192_S4096x8192_1_0_0_1_n_n 4096 rfl rfl k
  have el : dot_S4096x4096_S4096x8192_S4096x8192_1_0_0_1_n_n.lhsIdx (ix2 b c) ((contrEquiv1 dot_S4096x4096_S4096x8192_S4096x8192_1_0_0_1_n_n 4096 rfl rfl).symm k) = ix2 b k :=
    funext fun a => Fin.ext (by
      match a with
      | ⟨0, _⟩ => exact lhs_0 _ _
      | ⟨1, _⟩ => exact (lhs_1 _ _).trans hk)
  have er : dot_S4096x4096_S4096x8192_S4096x8192_1_0_0_1_n_n.rhsIdx (ix2 b c) ((contrEquiv1 dot_S4096x4096_S4096x8192_S4096x8192_1_0_0_1_n_n 4096 rfl rfl).symm k) = ix2 k c :=
    funext fun a => Fin.ext (by
      match a with
      | ⟨0, _⟩ => exact (rhs_0 _ _).trans hk
      | ⟨1, _⟩ => exact rhs_1 _ _)
  rw [el, er]

/-! ## The layout operations read at an index -/

/-- x and h side by side read in the lower half of the columns: x. -/
theorem cat_left (x h : FVec Ideal S4096x2048 .f32) (b : Fin 4096) (k : Fin 2048) :
    cat x h (ix2 b (Cert.SLstm.rowX k)) = x (ix2 b k) :=
  concatenate_pair_apply_left (t := S4096x4096) (1 : Fin S4096x4096.rank) x h concatenates_S4096x2048_S4096x2048_S4096x4096_d1
    (ix2 b (Cert.SLstm.rowX k)) rfl (ix2 b k) (fun a => match a with | ⟨0, _⟩ => rfl | ⟨1, _⟩ => rfl)

/-- x and h side by side read in the upper half of the columns: h. -/
theorem cat_right (x h : FVec Ideal S4096x2048 .f32) (b : Fin 4096) (k : Fin 2048) :
    cat x h (ix2 b (Cert.SLstm.rowH k)) = h (ix2 b k) :=
  concatenate_pair_apply_right (t := S4096x4096) (1 : Fin S4096x4096.rank) x h concatenates_S4096x2048_S4096x2048_S4096x4096_d1
    (ix2 b (Cert.SLstm.rowH k)) rfl rfl (ix2 b k)
    (fun a => match a with | ⟨0, _⟩ => fun _ => rfl | ⟨1, _⟩ => fun hne => absurd rfl hne)
    (by show k.val + 2048 = 2048 + k.val; omega)

/-- The bias spread over the rows reads the bias at the column. -/
theorem biasRows_apply (B : FVec Ideal S8192 .f32) (b : Fin 4096) (c : Fin 8192) : biasRows B (ix2 b c) = B (ix1 c) :=
  (broadcastInDim_apply (s := S1x8192) (t := S4096x8192) ![0, 1] bcast_S1x8192_S4096x8192_0_1
      (broadcastInDim S1x8192 ![1] bcast_S8192_S1x8192_1 B) (ix2 b c) (ix2 (0 : Fin 1) c)
      (fun a => match a with | ⟨0, _⟩ => rfl | ⟨1, _⟩ => rfl)).trans
    (broadcastInDim_apply (s := S8192) (t := S1x8192) ![1] bcast_S8192_S1x8192_1 B (ix2 (0 : Fin 1) c) (ix1 c)
      (fun a => match a with | ⟨0, _⟩ => rfl))

theorem blk0_apply (P : FVec Ideal S4096x8192 .f32) (b : Fin 4096) (j : Fin 2048) :
    blk0 P (ix2 b j) = P (ix2 b (Cert.SLstm.col 0 j)) :=
  extractStridedSlice_apply (s := S4096x8192) (t := S4096x2048) ![0, 0] P slices_S4096x8192_S4096x2048_0_0
    (ix2 b j) (ix2 b (Cert.SLstm.col 0 j))
    (fun a => match a with
      | ⟨0, _⟩ => by show b.val = 0 + b.val; omega
      | ⟨1, _⟩ => by show 0 * 2048 + j.val = 0 + j.val; omega)

theorem blk1_apply (P : FVec Ideal S4096x8192 .f32) (b : Fin 4096) (j : Fin 2048) :
    blk1 P (ix2 b j) = P (ix2 b (Cert.SLstm.col 1 j)) :=
  extractStridedSlice_apply (s := S4096x8192) (t := S4096x2048) ![0, 2048] P slices_S4096x8192_S4096x2048_0_2048
    (ix2 b j) (ix2 b (Cert.SLstm.col 1 j))
    (fun a => match a with
      | ⟨0, _⟩ => by show b.val = 0 + b.val; omega
      | ⟨1, _⟩ => by show 1 * 2048 + j.val = 2048 + j.val; omega)

theorem blk2_apply (P : FVec Ideal S4096x8192 .f32) (b : Fin 4096) (j : Fin 2048) :
    blk2 P (ix2 b j) = P (ix2 b (Cert.SLstm.col 2 j)) :=
  extractStridedSlice_apply (s := S4096x8192) (t := S4096x2048) ![0, 4096] P slices_S4096x8192_S4096x2048_0_4096
    (ix2 b j) (ix2 b (Cert.SLstm.col 2 j))
    (fun a => match a with
      | ⟨0, _⟩ => by show b.val = 0 + b.val; omega
      | ⟨1, _⟩ => by show 2 * 2048 + j.val = 4096 + j.val; omega)

theorem blk3_apply (P : FVec Ideal S4096x8192 .f32) (b : Fin 4096) (j : Fin 2048) :
    blk3 P (ix2 b j) = P (ix2 b (Cert.SLstm.col 3 j)) :=
  extractStridedSlice_apply (s := S4096x8192) (t := S4096x2048) ![0, 6144] P slices_S4096x8192_S4096x2048_0_6144
    (ix2 b j) (ix2 b (Cert.SLstm.col 3 j))
    (fun a => match a with
      | ⟨0, _⟩ => by show b.val = 0 + b.val; omega
      | ⟨1, _⟩ => by show 3 * 2048 + j.val = 6144 + j.val; omega)

/-- An array given a leading axis of extent one, read at (0, b, j). -/
theorem lift_apply (a : FVec Ideal S4096x2048 .f32) (b : Fin 4096) (j : Fin 2048) : lift a (ix3 (0 : Fin 1) b j) = a (ix2 b j) :=
  broadcastInDim_apply (s := S4096x2048) (t := S1x4096x2048) ![1, 2] bcast_S4096x2048_S1x4096x2048_1_2 a
    (ix3 (0 : Fin 1) b j) (ix2 b j) (fun ax => match ax with | ⟨0, _⟩ => rfl | ⟨1, _⟩ => rfl)

theorem stack_apply_0 (p0 p1 p2 p3 : FVec Ideal S4096x2048 .f32) (b : Fin 4096) (j : Fin 2048) :
    stack p0 p1 p2 p3 (ix3 (0 : Fin 4) b j) = p0 (ix2 b j) :=
  (concatenate_apply_piece (t := S4x4096x2048) (0 : Fin S4x4096x2048.rank)
      [⟨S1x4096x2048, lift p0⟩, ⟨S1x4096x2048, lift p1⟩, ⟨S1x4096x2048, lift p2⟩, ⟨S1x4096x2048, lift p3⟩]
      concatenates_S1x4096x2048_S1x4096x2048_S1x4096x2048_S1x4096x2048_S4x4096x2048_d0
      (ix3 (0 : Fin 4) b j) 0 (by show (0 : ℕ) < 4; omega) S1x4096x2048 (lift p0) rfl rfl 0 (by first | rfl | decide | simp)
      (ix3 (0 : Fin 1) b j)
      (fun a => match a with
        | ⟨0, _⟩ => fun hne => absurd rfl hne
        | ⟨1, _⟩ => fun _ => rfl
        | ⟨2, _⟩ => fun _ => rfl)
      rfl).trans (lift_apply p0 b j)

theorem stack_apply_1 (p0 p1 p2 p3 : FVec Ideal S4096x2048 .f32) (b : Fin 4096) (j : Fin 2048) :
    stack p0 p1 p2 p3 (ix3 (1 : Fin 4) b j) = p1 (ix2 b j) :=
  (concatenate_apply_piece (t := S4x4096x2048) (0 : Fin S4x4096x2048.rank)
      [⟨S1x4096x2048, lift p0⟩, ⟨S1x4096x2048, lift p1⟩, ⟨S1x4096x2048, lift p2⟩, ⟨S1x4096x2048, lift p3⟩]
      concatenates_S1x4096x2048_S1x4096x2048_S1x4096x2048_S1x4096x2048_S4x4096x2048_d0
      (ix3 (1 : Fin 4) b j) 1 (by show (1 : ℕ) < 4; omega) S1x4096x2048 (lift p1) rfl rfl 1 (by first | rfl | decide | simp)
      (ix3 (0 : Fin 1) b j)
      (fun a => match a with
        | ⟨0, _⟩ => fun hne => absurd rfl hne
        | ⟨1, _⟩ => fun _ => rfl
        | ⟨2, _⟩ => fun _ => rfl)
      rfl).trans (lift_apply p1 b j)

theorem stack_apply_2 (p0 p1 p2 p3 : FVec Ideal S4096x2048 .f32) (b : Fin 4096) (j : Fin 2048) :
    stack p0 p1 p2 p3 (ix3 (2 : Fin 4) b j) = p2 (ix2 b j) :=
  (concatenate_apply_piece (t := S4x4096x2048) (0 : Fin S4x4096x2048.rank)
      [⟨S1x4096x2048, lift p0⟩, ⟨S1x4096x2048, lift p1⟩, ⟨S1x4096x2048, lift p2⟩, ⟨S1x4096x2048, lift p3⟩]
      concatenates_S1x4096x2048_S1x4096x2048_S1x4096x2048_S1x4096x2048_S4x4096x2048_d0
      (ix3 (2 : Fin 4) b j) 2 (by show (2 : ℕ) < 4; omega) S1x4096x2048 (lift p2) rfl rfl 2 (by first | rfl | decide | simp)
      (ix3 (0 : Fin 1) b j)
      (fun a => match a with
        | ⟨0, _⟩ => fun hne => absurd rfl hne
        | ⟨1, _⟩ => fun _ => rfl
        | ⟨2, _⟩ => fun _ => rfl)
      rfl).trans (lift_apply p2 b j)

theorem stack_apply_3 (p0 p1 p2 p3 : FVec Ideal S4096x2048 .f32) (b : Fin 4096) (j : Fin 2048) :
    stack p0 p1 p2 p3 (ix3 (3 : Fin 4) b j) = p3 (ix2 b j) :=
  (concatenate_apply_piece (t := S4x4096x2048) (0 : Fin S4x4096x2048.rank)
      [⟨S1x4096x2048, lift p0⟩, ⟨S1x4096x2048, lift p1⟩, ⟨S1x4096x2048, lift p2⟩, ⟨S1x4096x2048, lift p3⟩]
      concatenates_S1x4096x2048_S1x4096x2048_S1x4096x2048_S1x4096x2048_S4x4096x2048_d0
      (ix3 (3 : Fin 4) b j) 3 (by show (3 : ℕ) < 4; omega) S1x4096x2048 (lift p3) rfl rfl 3 (by first | rfl | decide | simp)
      (ix3 (0 : Fin 1) b j)
      (fun a => match a with
        | ⟨0, _⟩ => fun hne => absurd rfl hne
        | ⟨1, _⟩ => fun _ => rfl
        | ⟨2, _⟩ => fun _ => rfl)
      rfl).trans (lift_apply p3 b j)

/-! ## The elementwise chain read at an index -/

theorem sigV_apply (a : FVec Ideal S4096x2048 .f32) (y : S4096x2048.Idx) : sigV a y = Ideal.logistic (a y) := by
  show Ideal.div (Ideal.ofBits .f32 0x3F800000#32) (Ideal.ofBits .f32 0x3F800000#32 + Ideal.exp (-(a y)))
    = Ideal.div 1 (1 + Ideal.exp (-(a y)))
  rw [Ideal.ofBits_one_f32]

theorem softplusV_apply (a : FVec Ideal S4096x2048 .f32) (y : S4096x2048.Idx) : softplusV a y = Cert.SLstm.softplus (a y) := by
  show Scalar.select
      (Ideal.cmp .une (a y - Ideal.ofBits .f32 0x00000000#32) (a y - Ideal.ofBits .f32 0x00000000#32))
      (a y + Ideal.ofBits .f32 0x00000000#32)
      (max (a y) (Ideal.ofBits .f32 0x00000000#32)
        + Ideal.log1p (Ideal.exp (-(max (a y - Ideal.ofBits .f32 0x00000000#32) (-(a y - Ideal.ofBits .f32 0x00000000#32))))))
    = _
  rw [Ideal.ofBits_zero_f32, Cert.SLstm.sub_zero_eq, Cert.SLstm.cmp_une_self, select_zero]
  rfl

theorem logSigV_apply (a : FVec Ideal S4096x2048 .f32) (y : S4096x2048.Idx) : logSigV a y = Cert.SLstm.logSigmoid (a y) := by
  show -(softplusV (Host.negf a) y) = _
  rw [softplusV_apply]
  rfl

theorem mV_apply (i f m : FVec Ideal S4096x2048 .f32) (y : S4096x2048.Idx) : mV i f m y = Cert.SLstm.mNew (i y) (f y) (m y) := by
  show max (logSigV f y + m y) (i y) = max (Cert.SLstm.logSigmoid (f y) + m y) (i y)
  rw [logSigV_apply]

theorem iV_apply (i f m : FVec Ideal S4096x2048 .f32) (y : S4096x2048.Idx) : iV i f m y = Cert.SLstm.iPrime (i y) (f y) (m y) := by
  show Ideal.exp (i y - mV i f m y) = Ideal.exp (i y - Cert.SLstm.mNew (i y) (f y) (m y))
  rw [mV_apply]

theorem cV_apply (z i f c m : FVec Ideal S4096x2048 .f32) (y : S4096x2048.Idx) :
    cV z i f c m y = Cert.SLstm.cNew (z y) (i y) (f y) (c y) (m y) := by
  show sigV f y * c y + iV i f m y * Ideal.tanh (z y)
    = Ideal.logistic (f y) * c y + Cert.SLstm.iPrime (i y) (f y) (m y) * Ideal.tanh (z y)
  rw [sigV_apply, iV_apply]

theorem nV_apply (i f n m : FVec Ideal S4096x2048 .f32) (y : S4096x2048.Idx) :
    nV i f n m y = Cert.SLstm.nNew (i y) (f y) (n y) (m y) := by
  show sigV f y * n y + iV i f m y = Ideal.logistic (f y) * n y + Cert.SLstm.iPrime (i y) (f y) (m y)
  rw [sigV_apply, iV_apply]

theorem hV_apply (z i f o c n m : FVec Ideal S4096x2048 .f32) (y : S4096x2048.Idx) :
    hV z i f o c n m y = Cert.SLstm.hNew (z y) (i y) (f y) (o y) (c y) (n y) (m y) := by
  show sigV o y * Ideal.div (cV z i f c m y) (nV i f n m y)
    = Ideal.logistic (o y) * Ideal.div (Cert.SLstm.cNew (z y) (i y) (f y) (c y) (m y)) (Cert.SLstm.nNew (i y) (f y) (n y) (m y))
  rw [sigV_apply, cV_apply, nV_apply]

/-! ## The pre-activation at column g·2048 + j is the specification's gate -/

theorem pre_apply (x h : FVec Ideal S4096x2048 .f32) (W : FVec Ideal S4096x8192 .f32) (B : FVec Ideal S8192 .f32)
    (g : Fin 4) (b : Fin 4096) (j : Fin 2048) :
    pre x h W B (ix2 b (Cert.SLstm.col g j)) = Cert.SLstm.gate x h W B g b j := by
  have h1 : pre x h W B (ix2 b (Cert.SLstm.col g j))
      = (∑ k : Fin 4096, cat x h (ix2 b k) * W (ix2 k (Cert.SLstm.col g j))) + B (ix1 (Cert.SLstm.col g j)) := by
    show Host.dotGeneral dot_S4096x4096_S4096x8192_S4096x8192_1_0_0_1_n_n none (cat x h) W (ix2 b (Cert.SLstm.col g j))
        + biasRows B (ix2 b (Cert.SLstm.col g j)) = _
    rw [dot_apply, biasRows_apply]
  rw [h1, Cert.SLstm.sum_halves]
  simp only [cat_left, cat_right, Cert.SLstm.gate]

/-! ## The result read at (q, b, j) -/

theorem outOf_apply_0 (P : FVec Ideal S4096x8192 .f32) (c n m : FVec Ideal S4096x2048 .f32) (b : Fin 4096) (j : Fin 2048) :
    outOf P c n m (ix3 (0 : Fin 4) b j) = Cert.SLstm.hNew (P (ix2 b (Cert.SLstm.col 0 j))) (P (ix2 b (Cert.SLstm.col 1 j))) (P (ix2 b (Cert.SLstm.col 2 j))) (P (ix2 b (Cert.SLstm.col 3 j))) (c (ix2 b j)) (n (ix2 b j)) (m (ix2 b j)) := by
  unfold outOf
  rw [stack_apply_0, hV_apply, blk0_apply, blk1_apply, blk2_apply, blk3_apply]

theorem outOf_apply_1 (P : FVec Ideal S4096x8192 .f32) (c n m : FVec Ideal S4096x2048 .f32) (b : Fin 4096) (j : Fin 2048) :
    outOf P c n m (ix3 (1 : Fin 4) b j) = Cert.SLstm.cNew (P (ix2 b (Cert.SLstm.col 0 j))) (P (ix2 b (Cert.SLstm.col 1 j))) (P (ix2 b (Cert.SLstm.col 2 j))) (c (ix2 b j)) (m (ix2 b j)) := by
  unfold outOf
  rw [stack_apply_1, cV_apply, blk0_apply, blk1_apply, blk2_apply]

theorem outOf_apply_2 (P : FVec Ideal S4096x8192 .f32) (c n m : FVec Ideal S4096x2048 .f32) (b : Fin 4096) (j : Fin 2048) :
    outOf P c n m (ix3 (2 : Fin 4) b j) = Cert.SLstm.nNew (P (ix2 b (Cert.SLstm.col 1 j))) (P (ix2 b (Cert.SLstm.col 2 j))) (n (ix2 b j)) (m (ix2 b j)) := by
  unfold outOf
  rw [stack_apply_2, nV_apply, blk1_apply, blk2_apply]

theorem outOf_apply_3 (P : FVec Ideal S4096x8192 .f32) (c n m : FVec Ideal S4096x2048 .f32) (b : Fin 4096) (j : Fin 2048) :
    outOf P c n m (ix3 (3 : Fin 4) b j) = Cert.SLstm.mNew (P (ix2 b (Cert.SLstm.col 1 j))) (P (ix2 b (Cert.SLstm.col 2 j))) (m (ix2 b j)) := by
  unfold outOf
  rw [stack_apply_3, mV_apply, blk1_apply, blk2_apply]

theorem out_apply_0 (x h c n m : FVec Ideal S4096x2048 .f32) (W : FVec Ideal S4096x8192 .f32) (B : FVec Ideal S8192 .f32)
    (b : Fin 4096) (j : Fin 2048) :
    out x h c n m W B (ix3 (0 : Fin 4) b j) = Cert.SLstm.cellAt x h c n m W B 0 b j := by
  unfold out
  rw [outOf_apply_0, pre_apply, pre_apply, pre_apply, pre_apply]
  rfl

theorem out_apply_1 (x h c n m : FVec Ideal S4096x2048 .f32) (W : FVec Ideal S4096x8192 .f32) (B : FVec Ideal S8192 .f32)
    (b : Fin 4096) (j : Fin 2048) :
    out x h c n m W B (ix3 (1 : Fin 4) b j) = Cert.SLstm.cellAt x h c n m W B 1 b j := by
  unfold out
  rw [outOf_apply_1, pre_apply, pre_apply, pre_apply]
  rfl

theorem out_apply_2 (x h c n m : FVec Ideal S4096x2048 .f32) (W : FVec Ideal S4096x8192 .f32) (B : FVec Ideal S8192 .f32)
    (b : Fin 4096) (j : Fin 2048) :
    out x h c n m W B (ix3 (2 : Fin 4) b j) = Cert.SLstm.cellAt x h c n m W B 2 b j := by
  unfold out
  rw [outOf_apply_2, pre_apply, pre_apply]
  rfl

theorem out_apply_3 (x h c n m : FVec Ideal S4096x2048 .f32) (W : FVec Ideal S4096x8192 .f32) (B : FVec Ideal S8192 .f32)
    (b : Fin 4096) (j : Fin 2048) :
    out x h c n m W B (ix3 (3 : Fin 4) b j) = Cert.SLstm.cellAt x h c n m W B 3 b j := by
  unfold out
  rw [outOf_apply_3, pre_apply, pre_apply]
  rfl

/-- The composed term at (q, b, j) is the cell specification there. -/
theorem out_apply (x h c n m : FVec Ideal S4096x2048 .f32) (W : FVec Ideal S4096x8192 .f32) (B : FVec Ideal S8192 .f32)
    (q : Fin 4) (b : Fin 4096) (j : Fin 2048) :
    out x h c n m W B (ix3 q b j) = Cert.SLstm.cellAt x h c n m W B q b j := by
  match q with
  | ⟨0, _⟩ => exact out_apply_0 x h c n m W B b j
  | ⟨1, _⟩ => exact out_apply_1 x h c n m W B b j
  | ⟨2, _⟩ => exact out_apply_2 x h c n m W B b j
  | ⟨3, _⟩ => exact out_apply_3 x h c n m W B b j

/-- The reference's composed term IS the cell specification. -/
theorem out_eq_G (x h c n m : FVec Ideal S4096x2048 .f32) (W : FVec Ideal S4096x8192 .f32) (B : FVec Ideal S8192 .f32) :
    out x h c n m W B = Cert.SLstm.G x h c n m W B :=
  Cert.SLstm.eq_G_of_apply x h c n m W B (out x h c n m W B) (out_apply x h c n m W B)

end Cert.ReferenceIdeal.RefValue

end
-- ==== Proof.RefValue.lean ====
/-
  The reference's run, read as the cell specification: from any memory with zero counters every weakly fair execution
  of @main terminates with the result buffer at `Cert.SLstm.G` of the seven arguments' launch contents, and the
  arguments unchanged. The run gives every buffer as the fold of the 58 operations; the fold at the result buffer is the
  composed term `out`; and `out` is `G`, index by index.
-/
import proofs.«116610_j747324309576_2_alg».proof.Proof.RefOut
import proofs.«116610_j747324309576_2_alg».proof.Proof.RefStages

noncomputable section

namespace Cert.ReferenceIdeal.RefValue

open Cert.ReferenceIdeal Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38)
        = Cert.SLstm.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ hr c =>
      ⟨(hr c main_v38).trans ((out_eq (StableHlo.launchContents m c)).trans (out_eq_G _ _ _ _ _ _ _)),
       (hr c main_arg0).trans (arg0_eq _),
       (hr c main_arg1).trans (arg1_eq _),
       (hr c main_arg2).trans (arg2_eq _),
       (hr c main_arg3).trans (arg3_eq _),
       (hr c main_arg4).trans (arg4_eq _),
       (hr c main_arg5).trans (arg5_eq _),
       (hr c main_arg6).trans (arg6_eq _)⟩)
    (run_after m ρ)

end Cert.ReferenceIdeal.RefValue

end
-- ==== Proof.lean ====
/-
  A stabilized LSTM step: a tiled kernel against the plain formula.

  Both programs compute, from `x, h, c, n, m : [4096, 2048]`, weights `W : [4096, 8192]` and a bias `B : [8192]`, the stacked
  array `[h', c', n', m']` of `Cert.SLstm.G` (Proof/CellSpec.lean): four gate pre-activations
  `concat(x, h) · W[:, g·2048 + j] + B[g·2048 + j]`, then pointwise `m' = max (logσ f + m) i`, `i' = exp (i − m')`,
  `c' = σ f · c + i' · tanh z`, `n' = σ f · n + i'`, `h' = σ o · (c' / n')`.

  The kernel walks an 8 × 8 grid of 512-row by 256-unit tiles; per gate it adds two block products, `x`'s tile against the
  weight rows that meet `x` and `h`'s tile against the rows that meet `h`, and the bias row (Proof/KernelCell.lean,
  KernelTile.lean); its host prologue only cuts the weights into those eight pieces and changes formats, the identity on
  the extended reals (Proof/KernelHost.lean); the 64 tiles cover the result (Proof/KernelBlocks.lean).  The reference
  contracts the concatenation `[x, h]` against all of `W` at once (Proof/RefRun.lean … RefValue.lean).  The two meet in one
  law, that a sum over `Fin 4096` is the sum over its lower half plus the sum over its upper half — associativity of `+`,
  valid on every extended real, so the precondition is never opened.  The logistic function is spelt as one operation in the
  kernel and as `1 / (1 + exp (−y))` in the reference: the same function by definition at the ideal values; the kernel writes
  `0 − y` where the reference negates, and both guard `softplus` by a test "`y ≠ y`" that never holds.

  The kernel's two frames are the generated ones; the reference's frame is its run with the result dropped; no rewrite was
  applied by the ideal pass, so there is nothing to preserve.
-/
import proofs.«116610_j747324309576_2_alg».proof.Defs
import proofs.«116610_j747324309576_2_alg».proof.Proof.Gen.Kernel
import proofs.«116610_j747324309576_2_alg».proof.Proof.Gen.Kernel.Skeleton
import proofs.«116610_j747324309576_2_alg».proof.Proof.Gen.Kernel.Launch
import proofs.«116610_j747324309576_2_alg».proof.Proof.Gen.Kernel.Points
import proofs.«116610_j747324309576_2_alg».proof.Proof.Gen.Kernel.Frame
import proofs.«116610_j747324309576_2_alg».proof.Proof.Gen.KernelIdeal
import proofs.«116610_j747324309576_2_alg».proof.Proof.Gen.KernelIdeal.Skeleton
import proofs.«116610_j747324309576_2_alg».proof.Proof.Gen.KernelIdeal.Launch
import proofs.«116610_j747324309576_2_alg».proof.Proof.Gen.KernelIdeal.Points
import proofs.«116610_j747324309576_2_alg».proof.Proof.Gen.KernelIdeal.Frame
import proofs.«116610_j747324309576_2_alg».proof.Proof.Gen.KernelIdeal.Value
import proofs.«116610_j747324309576_2_alg».proof.Proof.Gen.ReferenceIdeal
import proofs.«116610_j747324309576_2_alg».proof.Proof.Gen.Pre_finite_inputs
import proofs.«116610_j747324309576_2_alg».proof.Proof.KernelBlocks
import proofs.«116610_j747324309576_2_alg».proof.Proof.RefValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- Both idealized programs end with the result array at `G` of their arguments, and the arguments agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
